-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x32768 : Shape := ⟨3, ![16, 64, 32768]⟩
abbrev S16x3x32768 : Shape := ⟨3, ![16, 3, 32768]⟩
abbrev S_ : Shape := ⟨0, ![]⟩

class Facts : Prop where
  bcast_S_S16x64x32768 : S_.BroadcastsInDim S16x64x32768 (![] : Fin 0 → Fin S16x64x32768.rank)
  reducesTo_S16x64x32768_S_d0_1_2 : S16x64x32768.ReducesTo [0, 1, 2] S_
  h_S_ : 0 < S_.numel
  bcast_S_S16x3x32768 : S_.BroadcastsInDim S16x3x32768 (![] : Fin 0 → Fin S16x3x32768.rank)
  reducesTo_S16x3x32768_S_d0_1_2 : S16x3x32768.ReducesTo [0, 1, 2] S_

variable [Facts]

def fn {F : FTy → Type} [FloatOps F] (main_arg0 : FVec F S16x64x32768 .f32) (main_arg1 : FVec F S16x3x32768 .f32) : IVec S_ 1 :=
  let main_v0 : FVec F S16x64x32768 .f32 := Host.absf main_arg0
  let main_cst : FVec F S_ .f32 := constant S_ .f32 0x7F800000#32
  let main_v1 : FVec F S16x64x32768 .f32 := broadcastInDim S16x64x32768 ![] bcast_S_S16x64x32768 main_cst
  let main_v2 : IVec S16x64x32768 1 := cmpf .olt main_v0 main_v1
  let main_c : IVec S_ 1 := constantI S_ 1 1#1
  let main_v3 : IVec S_ 1 := (fun x v => Host.reduce IntOp.andi x v reducesTo_S16x64x32768_S_d0_1_2 h_S_) main_v2 main_c
  let main_v4 : FVec F S16x3x32768 .f32 := Host.absf main_arg1
  let main_cst_0 : FVec F S_ .f32 := constant S_ .f32 0x7F800000#32
  let main_v5 : FVec F S16x3x32768 .f32 := broadcastInDim S16x3x32768 ![] bcast_S_S16x3x32768 main_cst_0
  let main_v6 : IVec S16x3x32768 1 := cmpf .olt main_v4 main_v5
  let main_c_1 : IVec S_ 1 := constantI S_ 1 1#1
  let main_v7 : IVec S_ 1 := (fun x v => Host.reduce IntOp.andi x v reducesTo_S16x3x32768_S_d0_1_2 h_S_) main_v6 main_c_1
  let main_v8 : IVec S_ 1 := andi main_v3 main_v7
  main_v8
-- ==== Kernel.lean ====
abbrev S16x64x32768 : Shape := ⟨3, ![16, 64, 32768]⟩
abbrev S16x3x32768 : Shape := ⟨3, ![16, 3, 32768]⟩
abbrev S_ : Shape := ⟨0, ![]⟩
abbrev S16x3 : Shape := ⟨2, ![16, 3]⟩
abbrev S16x3x1 : Shape := ⟨3, ![16, 3, 1]⟩
abbrev S16x32768 : Shape := ⟨2, ![16, 32768]⟩
abbrev S16x1x32768 : Shape := ⟨3, ![16, 1, 32768]⟩
abbrev S16x1 : Shape := ⟨2, ![16, 1]⟩
abbrev S16x1x1 : Shape := ⟨3, ![16, 1, 1]⟩
abbrev S1x64x4096 : Shape := ⟨3, ![1, 64, 4096]⟩
abbrev S1x1x4096 : Shape := ⟨3, ![1, 1, 4096]⟩
abbrev S1x64x1024 : Shape := ⟨3, ![1, 64, 1024]⟩
abbrev S65x1024 : Shape := ⟨2, ![65, 1024]⟩
abbrev S1x4096 : Shape := ⟨2, ![1, 4096]⟩
abbrev S1024x1 : Shape := ⟨2, ![1024, 1]⟩
abbrev S1024x4096 : Shape := ⟨2, ![1024, 4096]⟩
abbrev S64x4096 : Shape := ⟨2, ![64, 4096]⟩
abbrev S65x4096 : Shape := ⟨2, ![65, 4096]⟩
abbrev S64x1024 : Shape := ⟨2, ![64, 1024]⟩
abbrev S1x1024 : Shape := ⟨2, ![1, 1024]⟩
abbrev S16x64x32x32x32 : Shape := ⟨5, ![16, 64, 32, 32, 32]⟩

abbrev nBuf : Space → Nat
  | .hbm => 59
  | .vmem => 7
  | .smem => 0
  | _ => 0

abbrev bufTy : (tb : Table) → Fin (tcTables nBuf tb) → BufTy
  | .hbm, ⟨0, _⟩ => ⟨S16x64x32768, .f32⟩
  | .hbm, ⟨1, _⟩ => ⟨S16x3x32768, .f32⟩
  | .hbm, ⟨2, _⟩ => ⟨S_, .f32⟩
  | .hbm, ⟨3, _⟩ => ⟨S16x3, .f32⟩
  | .hbm, ⟨4, _⟩ => ⟨S16x3x1, .f32⟩
  | .hbm, ⟨5, _⟩ => ⟨S_, .f32⟩
  | .hbm, ⟨6, _⟩ => ⟨S16x3x1, .f32⟩
  | .hbm, ⟨7, _⟩ => ⟨S16x3x1, .f32⟩
  | .hbm, ⟨8, _⟩ => ⟨S16x3x32768, .f32⟩
  | .hbm, ⟨9, _⟩ => ⟨S16x3x32768, .f32⟩
  | .hbm, ⟨10, _⟩ => ⟨S16x3x32768, .f32⟩
  | .hbm, ⟨11, _⟩ => ⟨S_, .f32⟩
  | .hbm, ⟨12, _⟩ => ⟨S16x32768, .f32⟩
  | .hbm, ⟨13, _⟩ => ⟨S16x1x32768, .f32⟩
  | .hbm, ⟨14, _⟩ => ⟨S16x1x32768, .f32⟩
  | .hbm, ⟨15, _⟩ => ⟨S_, .f32⟩
  | .hbm, ⟨16, _⟩ => ⟨S16x1, .f32⟩
  | .hbm, ⟨17, _⟩ => ⟨S16x1x1, .f32⟩
  | .hbm, ⟨18, _⟩ => ⟨S_, .f32⟩
  | .hbm, ⟨19, _⟩ => ⟨S16x1x1, .f32⟩
  | .hbm, ⟨20, _⟩ => ⟨S16x1x1, .f32⟩
  | .hbm, ⟨21, _⟩ => ⟨S_, .f32⟩
  | .hbm, ⟨22, _⟩ => ⟨S16x1x1, .f32⟩
  | .hbm, ⟨23, _⟩ => ⟨S16x1x1, .f32⟩
  | .hbm, ⟨24, _⟩ => ⟨S16x3x32768, .f32⟩
  | .hbm, ⟨25, _⟩ => ⟨S16x3x32768, .f32⟩
  | .hbm, ⟨26, _⟩ => ⟨S_, .f32⟩
  | .hbm, ⟨27, _⟩ => ⟨S16x3x32768, .f32⟩
  | .hbm, ⟨28, _⟩ => ⟨S16x3x32768, .f32⟩
  | .hbm, ⟨29, _⟩ => ⟨S_, .f32⟩
  | .hbm, ⟨30, _⟩ => ⟨S16x3x32768, .f32⟩
  | .hbm, ⟨31, _⟩ => ⟨S16x3x32768, .f32⟩
  | .hbm, ⟨32, _⟩ => ⟨S_, .i32⟩
  | .hbm, ⟨33, _⟩ => ⟨S_, .i32⟩
  | .hbm, ⟨34, _⟩ => ⟨S_, .f32⟩
  | .hbm, ⟨35, _⟩ => ⟨S16x3x32768, .f32⟩
  | .hbm, ⟨36, _⟩ => ⟨S16x3x32768, .f32⟩
  | .hbm, ⟨37, _⟩ => ⟨S_, .f32⟩
  | .hbm, ⟨38, _⟩ => ⟨S16x3x32768, .f32⟩
  | .hbm, ⟨39, _⟩ => ⟨S16x3x32768, .f32⟩
  | .hbm, ⟨40, _⟩ => ⟨S16x3x32768, .f32⟩
  | .hbm, ⟨41, _⟩ => ⟨S16x3x32768, .i32⟩
  | .hbm, ⟨42, _⟩ => ⟨S16x1x32768, .i32⟩
  | .hbm, ⟨43, _⟩ => ⟨S16x32768, .i32⟩
  | .hbm, ⟨44, _⟩ => ⟨S_, .i32⟩
  | .hbm, ⟨45, _⟩ => ⟨S16x32768, .i32⟩
  | .hbm, ⟨46, _⟩ => ⟨S16x32768, .i32⟩
  | .hbm, ⟨47, _⟩ => ⟨S16x1x32768, .i32⟩
  | .hbm, ⟨48, _⟩ => ⟨S16x32768, .i32⟩
  | .hbm, ⟨49, _⟩ => ⟨S_, .i32⟩
  | .hbm, ⟨50, _⟩ => ⟨S16x32768, .i32⟩
  | .hbm, ⟨51, _⟩ => ⟨S16x32768, .i32⟩
  | .hbm, ⟨52, _⟩ => ⟨S16x32768, .i32⟩
  | .hbm, ⟨53, _⟩ => ⟨S16x1x32768, .i32⟩
  | .hbm, ⟨54, _⟩ => ⟨S16x32768, .i32⟩
  | .hbm, ⟨55, _⟩ => ⟨S16x32768, .i32⟩
  | .hbm, ⟨56, _⟩ => ⟨S16x1x32768, .i32⟩
  | .hbm, ⟨57, _⟩ => ⟨S16x64x32768, .f32⟩
  | .hbm, ⟨58, _⟩ => ⟨S16x64x32x32x32, .f32⟩
  | .local _ .vmem, ⟨0, _⟩ => ⟨S1x64x4096, .f32⟩
  | .local _ .vmem, ⟨1, _⟩ => ⟨S1x64x4096, .f32⟩
  | .local _ .vmem, ⟨2, _⟩ => ⟨S1x1x4096, .i32⟩
  | .local _ .vmem, ⟨3, _⟩ => ⟨S1x1x4096, .i32⟩
  | .local _ .vmem, ⟨4, _⟩ => ⟨S1x64x1024, .f32⟩
  | .local _ .vmem, ⟨5, _⟩ => ⟨S1x64x1024, .f32⟩
  | .local _ .vmem, ⟨6, _⟩ => ⟨S65x1024, .f32⟩
  | _, _ => ⟨S16x64x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_c_6 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_8 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 32, 8], ![false, false, false]⟩

def k0_cond2 (i : grid0.Coords) : BitVec 1 :=
  let arg2 : BitVec 32 := BitVec.ofNat 32 (i 2).val
  let c7_i32 : BitVec 32 := 7#32
  let v26 : BitVec 1 := Scalar.cmpi .eq arg2 c7_i32
  let v27 : BitVec 32 := Scalar.extui v26
  let c0_i32_11 : BitVec 32 := 0#32
  let v28 : BitVec 1 := Scalar.cmpi .ne v27 c0_i32_11
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  reducesTo_S16x3x32768_S16x3_d2 : S16x3x32768.ReducesTo [2] S16x3
  h_S_ : 0 < S_.numel
  bcast_S16x3_S16x3x1_0_1 : S16x3.BroadcastsInDim S16x3x1 (![0, 1] : Fin 2 → Fin S16x3x1.rank)
  bcast_S_S16x3x1 : S_.BroadcastsInDim S16x3x1 (![] : Fin 0 → Fin S16x3x1.rank)
  bcast_S16x3x1_S16x3x32768_0_1_2 : S16x3x1.BroadcastsInDim S16x3x32768 (![0, 1, 2] : Fin 3 → Fin S16x3x32768.rank)
  reducesTo_S16x3x32768_S16x32768_d1 : S16x3x32768.ReducesTo [1] S16x32768
  bcast_S16x32768_S16x1x32768_0_2 : S16x32768.BroadcastsInDim S16x1x32768 (![0, 2] : Fin 2 → Fin S16x1x32768.rank)
  reducesTo_S16x1x32768_S16x1_d2 : S16x1x32768.ReducesTo [2] S16x1
  bcast_S16x1_S16x1x1_0_1 : S16x1.BroadcastsInDim S16x1x1 (![0, 1] : Fin 2 → Fin S16x1x1.rank)
  bcast_S_S16x1x1 : S_.BroadcastsInDim S16x1x1 (![] : Fin 0 → Fin S16x1x1.rank)
  bcast_S16x1x1_S16x3x32768_0_1_2 : S16x1x1.BroadcastsInDim S16x3x32768 (![0, 1, 2] : Fin 3 → Fin S16x3x32768.rank)
  bcast_S_S16x3x32768 : S_.BroadcastsInDim S16x3x32768 (![] : Fin 0 → Fin S16x3x32768.rank)
  slices_S16x3x32768_S16x1x32768_0_0_0 : S16x3x32768.Slices ![0, 0, 0] S16x1x32768
  shapeCasts_S16x1x32768_S16x32768 : S16x1x32768.ShapeCasts S16x32768
  bcast_S_S16x32768 : S_.BroadcastsInDim S16x32768 (![] : Fin 0 → Fin S16x32768.rank)
  slices_S16x3x32768_S16x1x32768_0_1_0 : S16x3x32768.Slices ![0, 1, 0] S16x1x32768
  slices_S16x3x32768_S16x1x32768_0_2_0 : S16x3x32768.Slices ![0, 2, 0] S16x1x32768
  inb_S65x1024_S65x1024_0_0 : ∀ a, (![0, 0] : Fin 2 → Nat) a + S65x1024.size a ≤ S65x1024.size a
  h_S65x1024 : 0 < S65x1024.numel
  shapeCasts_S65x1024_S65x1024 : S65x1024.ShapeCasts S65x1024
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  iota_S1024x1_d0_w32 : S1024x1.Iotas .tc 32 [0]
  broadcasts_S1024x1_S1024x4096 : S1024x1.Broadcasts S1024x4096
  broadcasts_S1x4096_S1024x4096 : S1x4096.Broadcasts S1024x4096
  natLt_1_32 : 1 < 32
  bitsLt_bf16_f32 : FTy.bits .bf16 < FTy.bits .f32
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  concatenates_S64x4096_S1x4096_S65x4096_d0 : Shape.Concatenates [S64x4096, S1x4096] S65x4096 0
  slices_S65x1024_o0_0_S64x1024 : S65x1024.Slices ![0, 0] S64x1024
  slices_S65x1024_o64_0_S1x1024 : S65x1024.Slices ![64, 0] S1x1024
  broadcasts_S1x1024_S64x1024 : S1x1024.Broadcasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  shapeCasts_S16x64x32768_S16x64x32x32x32 : S16x64x32768.ShapeCasts S16x64x32x32x32
  dot_S65x4096_S1024x4096_S65x1024_1_1_0_0_n_n_wf : DotDims.WF S65x4096 S1024x4096 S65x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4096.size a ≤ S16x64x32768.size a
  hwx0_0 : ∀ i : grid0.Coords, EltTy.bits .f32 = 32 ∨ (Rect.block (s := S16x64x32768) S1x64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S16x1x32768.size a
  hwx0_1 : ∀ i : grid0.Coords, EltTy.bits .i32 = 32 ∨ (Rect.block (s := S16x1x32768) S1x1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S16x64x32768.size a
  hwx0_2 : ∀ i : grid0.Coords, EltTy.bits .f32 = 32 ∨ (Rect.block (s := S16x64x32768) S1x64x1024.size (cc0_transform_2 i) (hinb0_2 i)).WholeWords (EltTy.packing .f32)

variable [Facts₀]

def dot_S65x4096_S1024x4096_S65x1024_1_1_0_0_n_n : DotDims S65x4096 S1024x4096 S65x1024 where
  lhsContracting := [1]
  rhsContracting := [1]
  lhsNonContracting := [0]
  rhsNonContracting := [0]
  lhsBatch := []
  rhsBatch := []
  wf := dot_S65x4096_S1024x4096_S65x1024_1_1_0_0_n_n_wf

abbrev win0_0 : Pipeline.Window sig grid0 :=
  Pipeline.Window.ofSpec (Memref.whole main_arg0) S1x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x64x32768 : Shape := ⟨3, ![16, 64, 32768]⟩
abbrev S16x3x32768 : Shape := ⟨3, ![16, 3, 32768]⟩
abbrev S_ : Shape := ⟨0, ![]⟩
abbrev S16x3 : Shape := ⟨2, ![16, 3]⟩
abbrev S16x3x1 : Shape := ⟨3, ![16, 3, 1]⟩
abbrev S16x32768 : Shape := ⟨2, ![16, 32768]⟩
abbrev S16x1x32768 : Shape := ⟨3, ![16, 1, 32768]⟩
abbrev S16x1 : Shape := ⟨2, ![16, 1]⟩
abbrev S16x1x1 : Shape := ⟨3, ![16, 1, 1]⟩
abbrev S16 : Shape := ⟨1, ![16]⟩
abbrev S524288 : Shape := ⟨1, ![524288]⟩
abbrev S16x32768x64 : Shape := ⟨3, ![16, 32768, 64]⟩
abbrev S524288x64 : Shape := ⟨2, ![524288, 64]⟩
abbrev S524288x1 : Shape := ⟨2, ![524288, 1]⟩
abbrev S16x64x32x32x32 : Shape := ⟨5, ![16, 64, 32, 32, 32]⟩

abbrev nBuf : Space → Nat
  | .hbm => 85
  | .vmem => 0
  | .smem => 0
  | _ => 0

abbrev bufTy : (tb : Table) → Fin (tcTables nBuf tb) → BufTy
  | .hbm, ⟨0, _⟩ => ⟨S16x64x32768, .f32⟩
  | .hbm, ⟨1, _⟩ => ⟨S16x3x32768, .f32⟩
  | .hbm, ⟨2, _⟩ => ⟨S_, .f32⟩
  | .hbm, ⟨3, _⟩ => ⟨S16x3, .f32⟩
  | .hbm, ⟨4, _⟩ => ⟨S16x3x1, .f32⟩
  | .hbm, ⟨5, _⟩ => ⟨S_, .f32⟩
  | .hbm, ⟨6, _⟩ => ⟨S16x3x1, .f32⟩
  | .hbm, ⟨7, _⟩ => ⟨S16x3x1, .f32⟩
  | .hbm, ⟨8, _⟩ => ⟨S16x3x32768, .f32⟩
  | .hbm, ⟨9, _⟩ => ⟨S16x3x32768, .f32⟩
  | .hbm, ⟨10, _⟩ => ⟨S16x3x32768, .f32⟩
  | .hbm, ⟨11, _⟩ => ⟨S_, .f32⟩
  | .hbm, ⟨12, _⟩ => ⟨S16x32768, .f32⟩
  | .hbm, ⟨13, _⟩ => ⟨S16x1x32768, .f32⟩
  | .hbm, ⟨14, _⟩ => ⟨S16x1x32768, .f32⟩
  | .hbm, ⟨15, _⟩ => ⟨S_, .f32⟩
  | .hbm, ⟨16, _⟩ => ⟨S16x1, .f32⟩
  | .hbm, ⟨17, _⟩ => ⟨S16x1x1, .f32⟩
  | .hbm, ⟨18, _⟩ => ⟨S_, .f32⟩
  | .hbm, ⟨19, _⟩ => ⟨S16x1x1, .f32⟩
  | .hbm, ⟨20, _⟩ => ⟨S16x1x1, .f32⟩
  | .hbm, ⟨21, _⟩ => ⟨S_, .f32⟩
  | .hbm, ⟨22, _⟩ => ⟨S16x1x1, .f32⟩
  | .hbm, ⟨23, _⟩ => ⟨S16x1x1, .f32⟩
  | .hbm, ⟨24, _⟩ => ⟨S16x3x32768, .f32⟩
  | .hbm, ⟨25, _⟩ => ⟨S16x3x32768, .f32⟩
  | .hbm, ⟨26, _⟩ => ⟨S_, .f32⟩
  | .hbm, ⟨27, _⟩ => ⟨S16x3x32768, .f32⟩
  | .hbm, ⟨28, _⟩ => ⟨S16x3x32768, .f32⟩
  | .hbm, ⟨29, _⟩ => ⟨S_, .f32⟩
  | .hbm, ⟨30, _⟩ => ⟨S16x3x32768, .f32⟩
  | .hbm, ⟨31, _⟩ => ⟨S16x3x32768, .f32⟩
  | .hbm, ⟨32, _⟩ => ⟨S_, .i32⟩
  | .hbm, ⟨33, _⟩ => ⟨S_, .i32⟩
  | .hbm, ⟨34, _⟩ => ⟨S_, .f32⟩
  | .hbm, ⟨35, _⟩ => ⟨S16x3x32768, .f32⟩
  | .hbm, ⟨36, _⟩ => ⟨S16x3x32768, .f32⟩
  | .hbm, ⟨37, _⟩ => ⟨S_, .f32⟩
  | .hbm, ⟨38, _⟩ => ⟨S16x3x32768, .f32⟩
  | .hbm, ⟨39, _⟩ => ⟨S16x3x32768, .f32⟩
  | .hbm, ⟨40, _⟩ => ⟨S16x3x32768, .f32⟩
  | .hbm, ⟨41, _⟩ => ⟨S16x3x32768, .i32⟩
  | .hbm, ⟨42, _⟩ => ⟨S16x1x32768, .i32⟩
  | .hbm, ⟨43, _⟩ => ⟨S16x32768, .i32⟩
  | .hbm, ⟨44, _⟩ => ⟨S_, .i32⟩
  | .hbm, ⟨45, _⟩ => ⟨S16x32768, .i32⟩
  | .hbm, ⟨46, _⟩ => ⟨S16x32768, .i32⟩
  | .hbm, ⟨47, _⟩ => ⟨S16x1x32768, .i32⟩
  | .hbm, ⟨48, _⟩ => ⟨S16x32768, .i32⟩
  | .hbm, ⟨49, _⟩ => ⟨S_, .i32⟩
  | .hbm, ⟨50, _⟩ => ⟨S16x32768, .i32⟩
  | .hbm, ⟨51, _⟩ => ⟨S16x32768, .i32⟩
  | .hbm, ⟨52, _⟩ => ⟨S16x32768, .i32⟩
  | .hbm, ⟨53, _⟩ => ⟨S16x1x32768, .i32⟩
  | .hbm, ⟨54, _⟩ => ⟨S16x32768, .i32⟩
  | .hbm, ⟨55, _⟩ => ⟨S16x32768, .i32⟩
  | .hbm, ⟨56, _⟩ => ⟨S16, .i32⟩
  | .hbm, ⟨57, _⟩ => ⟨S16x1, .i32⟩
  | .hbm, ⟨58, _⟩ => ⟨S_, .i32⟩
  | .hbm, ⟨59, _⟩ => ⟨S16x1, .i32⟩
  | .hbm, ⟨60, _⟩ => ⟨S16x1, .i32⟩
  | .hbm, ⟨61, _⟩ => ⟨S16x32768, .i32⟩
  | .hbm, ⟨62, _⟩ => ⟨S16x32768, .i32⟩
  | .hbm, ⟨63, _⟩ => ⟨S524288, .i32⟩
  | .hbm, ⟨64, _⟩ => ⟨S16x32768x64, .f32⟩
  | .hbm, ⟨65, _⟩ => ⟨S524288x64, .f32⟩
  | .hbm, ⟨66, _⟩ => ⟨S_, .f32⟩
  | .hbm, ⟨67, _⟩ => ⟨S524288x64, .f32⟩
  | .hbm, ⟨68, _⟩ => ⟨S524288x1, .i32⟩
  | .hbm, ⟨69, _⟩ => ⟨S524288x64, .f32⟩
  | .hbm, ⟨70, _⟩ => ⟨S_, .f32⟩
  | .hbm, ⟨71, _⟩ => ⟨S524288, .f32⟩
  | .hbm, ⟨72, _⟩ => ⟨S_, .f32⟩
  | .hbm, ⟨73, _⟩ => ⟨S524288, .f32⟩
  | .hbm, ⟨74, _⟩ => ⟨S524288x1, .i32⟩
  | .hbm, ⟨75, _⟩ => ⟨S524288, .f32⟩
  | .hbm, ⟨76, _⟩ => ⟨S_, .f32⟩
  | .hbm, ⟨77, _⟩ => ⟨S524288, .f32⟩
  | .hbm, ⟨78, _⟩ => ⟨S524288, .f32⟩
  | .hbm, ⟨79, _⟩ => ⟨S524288x1, .f32⟩
  | .hbm, ⟨80, _⟩ => ⟨S524288x64, .f32⟩
  | .hbm, ⟨81, _⟩ => ⟨S524288x64, .f32⟩
  | .hbm, ⟨82, _⟩ => ⟨S16x32768x64, .f32⟩
  | .hbm, ⟨83, _⟩ => ⟨S16x64x32768, .f32⟩
  | .hbm, ⟨84, _⟩ => ⟨S16x64x32x32x32, .f32⟩
  | _, _ => ⟨S16x64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_c_6 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_8 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_cst_12 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩

abbrev nD : Nat := 1
abbrev τ : Topo := Topo.v7x

variable {F : FTy → Type} [FloatOps F]

class Facts₀ : Prop where
  reducesTo_S16x3x32768_S16x3_d2 : S16x3x32768.ReducesTo [2] S16x3
  h_S_ : 0 < S_.numel
  bcast_S16x3_S16x3x1_0_1 : S16x3.BroadcastsInDim S16x3x1 (![0, 1] : Fin 2 → Fin S16x3x1.rank)
  bcast_S_S16x3x1 : S_.BroadcastsInDim S16x3x1 (![] : Fin 0 → Fin S16x3x1.rank)
  bcast_S16x3x1_S16x3x32768_0_1_2 : S16x3x1.BroadcastsInDim S16x3x32768 (![0, 1, 2] : Fin 3 → Fin S16x3x32768.rank)
  reducesTo_S16x3x32768_S16x32768_d1 : S16x3x32768.ReducesTo [1] S16x32768
  bcast_S16x32768_S16x1x32768_0_2 : S16x32768.BroadcastsInDim S16x1x32768 (![0, 2] : Fin 2 → Fin S16x1x32768.rank)
  reducesTo_S16x1x32768_S16x1_d2 : S16x1x32768.ReducesTo [2] S16x1
  bcast_S16x1_S16x1x1_0_1 : S16x1.BroadcastsInDim S16x1x1 (![0, 1] : Fin 2 → Fin S16x1x1.rank)
  bcast_S_S16x1x1 : S_.BroadcastsInDim S16x1x1 (![] : Fin 0 → Fin S16x1x1.rank)
  bcast_S16x1x1_S16x3x32768_0_1_2 : S16x1x1.BroadcastsInDim S16x3x32768 (![0, 1, 2] : Fin 3 → Fin S16x3x32768.rank)
  bcast_S_S16x3x32768 : S_.BroadcastsInDim S16x3x32768 (![] : Fin 0 → Fin S16x3x32768.rank)
  slices_S16x3x32768_S16x1x32768_0_0_0 : S16x3x32768.Slices ![0, 0, 0] S16x1x32768
  shapeCasts_S16x1x32768_S16x32768 : S16x1x32768.ShapeCasts S16x32768
  bcast_S_S16x32768 : S_.BroadcastsInDim S16x32768 (![] : Fin 0 → Fin S16x32768.rank)
  slices_S16x3x32768_S16x1x32768_0_1_0 : S16x3x32768.Slices ![0, 1, 0] S16x1x32768
  slices_S16x3x32768_S16x1x32768_0_2_0 : S16x3x32768.Slices ![0, 2, 0] S16x1x32768
  bcast_S16_S16x1_0 : S16.BroadcastsInDim S16x1 (![0] : Fin 1 → Fin S16x1.rank)
  bcast_S_S16x1 : S_.BroadcastsInDim S16x1 (![] : Fin 0 → Fin S16x1.rank)
  bcast_S16x1_S16x32768_0_1 : S16x1.BroadcastsInDim S16x32768 (![0, 1] : Fin 2 → Fin S16x32768.rank)
  shapeCasts_S16x32768_S524288 : S16x32768.ShapeCasts S524288
  transposes_S16x64x32768_S16x32768x64_0_2_1 : S16x64x32768.Transposes [0, 2, 1] S16x32768x64
  shapeCasts_S16x32768x64_S524288x64 : S16x32768x64.ShapeCasts S524288x64
  bcast_S_S524288x64 : S_.BroadcastsInDim S524288x64 (![] : Fin 0 → Fin S524288x64.rank)
  bcast_S524288_S524288x1_0 : S524288.BroadcastsInDim S524288x1 (![0] : Fin 1 → Fin S524288x1.rank)
  bcast_S_S524288 : S_.BroadcastsInDim S524288 (![] : Fin 0 → Fin S524288.rank)
  bcast_S524288x1_S524288x64_0_1 : S524288x1.BroadcastsInDim S524288x64 (![0, 1] : Fin 2 → Fin S524288x64.rank)
  shapeCasts_S524288x64_S16x32768x64 : S524288x64.ShapeCasts S16x32768x64
  transposes_S16x32768x64_S16x64x32768_0_2_1 : S16x32768x64.Transposes [0, 2, 1] S16x64x32768
  shapeCasts_S16x64x32768_S16x64x32x32x32 : S16x64x32768.ShapeCasts S16x64x32x32x32
  scatter_S524288x64_S524288x1_S524288x64_1_0_0_1_wf : ScatterDims.WF S524288x64 S524288x1 S524288x64 [1] [0] [0] 1
  scatter_S524288_S524288x1_S524288_n_0_0_1_wf : ScatterDims.WF S524288 S524288x1 S524288 [] [0] [0] 1

variable [Facts₀]

def scatter_S524288x64_S524288x1_S524288x64_1_0_0_1 : ScatterDims S524288x64 S524288x1 S524288x64 where
  updateWindowDims := [1]
  insertedWindowDims := [0]
  scatterDimsToOperandDims := [0]
  indexVectorDim := 1
  wf := scatter_S524288x64_S524288x1_S524288x64_1_0_0_1_wf
def scatter_S524288_S524288x1_S524288_n_0_0_1 : ScatterDims S524288 S524288x1 S524288 where
  updateWindowDims := []
  insertedWindowDims := [0]
  scatterDimsToOperandDims := [0]
  indexVectorDim := 1
  wf := scatter_S524288_S524288x1_S524288_n_0_0_1_wf

class Facts : Prop extends Facts₀ where

variable [Facts]
-- ==== Proof.Pieces.lean ====
/-
  What the kernel body leaves behind at one grid point, as values.

  The body keeps a 65 × 1024 accumulator between grid points (64 channel rows and one count row, one column per voxel
  of the current voxel tile). At a point it first clears the accumulator if the point is the first of its run of eight
  point-tiles, then adds the current point-tile's contribution to it, and, if the point is the last of the run, divides
  the channel rows by the count row (at least one) and stores the quotient as the output block. Whichever of the three
  cases a point is in (first, middle, last), the accumulator it leaves is the accumulate step applied to what it
  found (the zero block, at a first point), and the output block a last point leaves is the divide step applied to
  that new accumulator. These are statements about which store wrote which cell last: every store covers its whole
  buffer, so a buffer read back after a store holds that store's value.
-/
import proofs.«175713_j24764781429164_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Voxel.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point leaves the accumulate step of what it found. -/
theorem scratch_B (c : Dev nD) (i : grid0.Coords) (a3 : Memref sig .tc .vmem S1x64x4096 .f32) (h3 : a3.IsWhole)
    (a4 : Memref sig .tc .vmem S1x1x4096 .i32) (h4 : a4.IsWhole) (a5 : Memref sig .tc .vmem S1x64x1024 .f32) (h5 : a5.IsWhole)
    (a6 : Memref sig .tc .vmem S65x1024 .f32) (h6 : a6.IsWhole) (hc0 : ¬cond0_0 i) (hc1 : ¬cond0_1 i)
    (x0 : Vec F S1x64x4096 .f32) (x1 : Vec F S1x1x4096 .i32) (xs0 : Vec F S65x1024 .f32) :
    sout0_B_0 c i a3 h3 a4 h4 a5 h5 a6 h6 hc0 hc1 x0 x1 xs0 = k0_pay2 i x1 x0 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz2]
  simp only [View.readAt_eq_ld, h3.read_unread, h4.read_unread, h6.read_unread, View.ld_unit_zero (S := S65x1024) hz2,
    View.ld_unit_zero (S := S1x64x4096) hz3, View.ld_unit_zero (S := S1x1x4096) hz3]

/-- A first point clears the accumulator and leaves the accumulate step of the zero block. -/
theorem scratch_A (c : Dev nD) (i : grid0.Coords) (a3 : Memref sig .tc .vmem S1x64x4096 .f32) (h3 : a3.IsWhole)
    (a4 : Memref sig .tc .vmem S1x1x4096 .i32) (h4 : a4.IsWhole) (a5 : Memref sig .tc .vmem S1x64x1024 .f32) (h5 : a5.IsWhole)
    (a6 : Memref sig .tc .vmem S65x1024 .f32) (h6 : a6.IsWhole) (hc0 : cond0_0 i) (hc1 : ¬cond0_1 i)
    (x0 : Vec F S1x64x4096 .f32) (x1 : Vec F S1x1x4096 .i32) :
    sout0_A_0 c i a3 h3 a4 h4 a5 h5 a6 h6 hc0 hc1 x0 x1 = k0_pay2 i x1 x0 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S65x1024) hz2, View.readCov_unit_zero (S := S65x1024) _ hz2]
  simp only [View.readAt_eq_ld, h3.read_unread, h4.read_unread, h6.read_unread, View.ld_unit_zero (S := S65x1024) hz2,
    View.ld_unit_zero (S := S1x64x4096) hz3, View.ld_unit_zero (S := S1x1x4096) hz3]

/-- A last point leaves, in the accumulator, the accumulate step of what it found. -/
theorem scratch_C (c : Dev nD) (i : grid0.Coords) (a3 : Memref sig .tc .vmem S1x64x4096 .f32) (h3 : a3.IsWhole)
    (a4 : Memref sig .tc .vmem S1x1x4096 .i32) (h4 : a4.IsWhole) (a5 : Memref sig .tc .vmem S1x64x1024 .f32) (h5 : a5.IsWhole)
    (a6 : Memref sig .tc .vmem S65x1024 .f32) (h6 : a6.IsWhole) (hc0 : ¬cond0_0 i) (hc1 : cond0_1 i)
    (x0 : Vec F S1x64x4096 .f32) (x1 : Vec F S1x1x4096 .i32) (xs0 : Vec F S65x1024 .f32) :
    sout0_C_0 c i a3 h3 a4 h4 a5 h5 a6 h6 hc0 hc1 x0 x1 xs0 = k0_pay2 i x1 x0 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz2]
  simp only [View.readAt_eq_ld, h3.read_unread, h4.read_unread, h6.read_unread, View.ld_unit_zero (S := S65x1024) hz2,
    View.ld_unit_zero (S := S1x64x4096) hz3, View.ld_unit_zero (S := S1x1x4096) hz3]

/-- A last point leaves, in the output block, the divide step of the accumulator it has just updated. -/
theorem out_C (c : Dev nD) (i : grid0.Coords) (a3 : Memref sig .tc .vmem S1x64x4096 .f32) (h3 : a3.IsWhole)
    (a4 : Memref sig .tc .vmem S1x1x4096 .i32) (h4 : a4.IsWhole) (a5 : Memref sig .tc .vmem S1x64x1024 .f32) (h5 : a5.IsWhole)
    (a6 : Memref sig .tc .vmem S65x1024 .f32) (h6 : a6.IsWhole) (hc0 : ¬cond0_0 i) (hc1 : cond0_1 i)
    (x0 : Vec F S1x64x4096 .f32) (x1 : Vec F S1x1x4096 .i32) (xs0 : Vec F S65x1024 .f32) :
    out0_C_2 c i a3 h3 a4 h4 a5 h5 a6 h6 hc0 hc1 x0 x1 xs0 = k0_pay3 (k0_pay2 i x1 x0 xs0) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz3, View.readCov_unit_zero (S := S65x1024) _ hz2]
  simp only [View.readAt_eq_ld, h3.read_unread, h4.read_unread, h6.read_unread, View.ld_unit_zero (S := S65x1024) hz2,
    View.ld_unit_zero (S := S1x64x4096) hz3, View.ld_unit_zero (S := S1x1x4096) hz3]

end Cert.Voxel.Pieces

end
-- ==== Proof.Payloads.lean ====
/-
  The kernel body's three stored values, each read at one index, at the ideal values.

  * The block the scratch is cleared with is zero everywhere.
  * One grid point adds to the scratch, at row `r` and voxel column `u`, the sum over the tile's 4096 points `k` whose
    voxel number is the tile's base plus `u` of the point's feature on channel `r` (rows below 64) or of one (row 64,
    the row that counts the points).
  * The final value divides each channel row by the count row, a count below one replaced by one.
-/
import proofs.«175713_j24764781429164_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Voxel.Pay

open Cert.KernelIdeal Cert.KernelIdeal.Gen Idealize.ShloMosaic Idealize.ShloMosaic.ValueIdx

/-- The f32 word of one denotes one. -/
theorem one_f32 : Ideal.ofBits .f32 0x3F800000#32 = 1 := IdealRules.sign_bit.ideal_onePat .f32

/-- The bf16 word of one denotes one. -/
theorem one_bf16 : Ideal.ofBits .bf16 0x3F80#16 = 1 := IdealRules.sign_bit.ideal_onePat .bf16

/-- The block the scratch is cleared with is zero at every index. -/
theorem pay1_apply (j : S65x1024.Idx) : k0_pay1 (F := Ideal) j = 0 := by
  unfold k0_pay1
  rw [shapeCast_self]
  exact Ideal.ofBits_zero_f32

/-- The final value at channel `d` and column `u`: the scratch's row `d` over its row 64, a count below one read as one. -/
theorem pay3_apply (acc : Vec Ideal S65x1024 .f32) (d : Fin 64) (u : Fin 1024) :
    k0_pay3 (F := Ideal) acc (ix3 0 d u)
      = Ideal.div (acc (ix2 ⟨d.val, by omega⟩ u)) (max (acc (ix2 ⟨64, by omega⟩ u)) 1) := by
  unfold k0_pay3
  refine (shapeCast_ab_1ab_apply _ _ 0 d u).trans ?_
  rw [divf_apply]
  rw [slice2_axis0_apply 0 acc _ d u ⟨d.val, by omega⟩ (by simp)]
  rw [broadcastTo_1b_ab_apply, maximumf_apply]
  rw [slice2_axis0_apply 64 acc _ (0 : Fin 1) u ⟨64, by omega⟩ (by simp)]
  rw [broadcast_apply]
  show Ideal.div _ (max _ (Ideal.ofBits .f32 0x3F800000#32)) = _
  rw [one_f32]

/-- The one-hot entry: a one-bit equality test, widened and read as a signed integer, is one where the words agree and
    zero where they do not. -/
theorem onehot_entry (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · have hb : IntOp.cmpi .eq a b = 1#1 := by
      show BitVec.ofBool (a == b) = 1#1
      rw [beq_iff_eq.mpr h]; rfl
    have h1 : ((1#1 : BitVec 1).setWidth 32).toInt = 1 := by decide
    rw [hb, if_pos h, h1]; simp
  · have hb : IntOp.cmpi .eq a b = 0#1 := by
      show BitVec.ofBool (a == b) = 0#1
      rw [beq_eq_false_iff_ne.mpr h]; rfl
    have h0 : ((0#1 : BitVec 1).setWidth 32).toInt = 0 := by decide
    rw [hb, if_neg h, h0]; simp

/-- A product against a one-hot entry keeps the factor or drops it. -/
theorem mul_onehot (x : EReal) (p : Prop) [Decidable p] : x * (if p then (1 : EReal) else 0) = if p then x else 0 := by
  split
  · exact mul_one x
  · exact mul_zero x

/-- The tile's product at row `r` and column `u`: both operands are contracted along their second axis, so the entry is
    the sum over that axis of the products of the two rows' entries. -/
theorem matmul_apply_ix {φ₁ φ₂ : FTy} (A : FVec Ideal S65x4096 φ₁) (B : FVec Ideal S1024x4096 φ₂) (r : Fin 65) (u : Fin 1024) :
    matmul dot_S65x4096_S1024x4096_S65x1024_1_1_0_0_n_n none A B (constant (F := Ideal) S65x1024 .f32 0x00000000#32) (ix2 r u)
      = ∑ c : Fin 4096, A (ix2 r c) * B (ix2 u c) := by
  show FloatOps.matmul _ none A B _ (ix2 r u) = _
  rw [Ideal.matmul_constant_zero_apply,
    ← Equiv.sum_comp (contrEquiv1 dot_S65x4096_S1024x4096_S65x1024_1_1_0_0_n_n 4096 rfl rfl).symm]
  refine Finset.sum_congr rfl fun c _ => ?_
  have c2 := contrEquiv1_symm_val dot_S65x4096_S1024x4096_S65x1024_1_1_0_0_n_n 4096 rfl rfl c
  have l2 : dot_S65x4096_S1024x4096_S65x1024_1_1_0_0_n_n.lhsIdx (ix2 r u) ((contrEquiv1 _ 4096 rfl rfl).symm c) = ix2 r c := by
    funext ax; apply Fin.ext
    match ax with
    | ⟨0, _⟩ => simp [DotDims.lhsIdx, dot_S65x4096_S1024x4096_S65x1024_1_1_0_0_n_n]; rfl
    | ⟨1, _⟩ => exact (DotDims.lhsIdx_val_of_single _ rfl _ _).trans c2
  have r2 : dot_S65x4096_S1024x4096_S65x1024_1_1_0_0_n_n.rhsIdx (ix2 r u) ((contrEquiv1 _ 4096 rfl rfl).symm c) = ix2 u c := by
    funext ax; apply Fin.ext
    match ax with
    | ⟨0, _⟩ => simp [DotDims.rhsIdx, dot_S65x4096_S1024x4096_S65x1024_1_1_0_0_n_n]; rfl
    | ⟨1, _⟩ => exact (DotDims.rhsIdx_val_of_single _ rfl _ _).trans c2
  rw [l2, r2]

/-- The stacked left operand at row `r`: a row below 64 is the first piece's, row 64 the second piece's one row. -/
theorem concat_apply {α : Type} (A : S64x4096.Idx → α) (B : S1x4096.Idx → α)
    (h : Shape.Concatenates [S64x4096, S1x4096] S65x4096 0) (r : Fin 65) (c : Fin 4096) :
    concatenate S65x4096 0 [⟨S64x4096, A⟩, ⟨S1x4096, B⟩] h (ix2 r c)
      = if hr : r.val < 64 then A (ix2 ⟨r.val, hr⟩ c) else B (ix2 (0 : Fin 1) c) := by
  split
  · next hr =>
    exact concatenate_pair_apply_left 0 A B h (ix2 r c) rfl (ix2 ⟨r.val, hr⟩ c)
      (fun b => by match b with | ⟨0, _⟩ => rfl | ⟨1, _⟩ => rfl)
  · next hr =>
    exact concatenate_pair_apply_right 0 A B h (ix2 r c) rfl rfl (ix2 (0 : Fin 1) c)
      (fun b hb => by match b with | ⟨0, _⟩ => exact absurd rfl hb | ⟨1, _⟩ => rfl)
      (by show 0 + 64 = r.val; omega)

/-- One column broadcast over many: a `[1024, 1]` array read at `(u, c)` of `[1024, 4096]` is its row `u`. -/
theorem bcast_col {α : Type} (v : S1024x1.Idx → α) (h : S1024x1.Broadcasts S1024x4096) (u : Fin 1024) (c : Fin 4096) :
    broadcastTo S1024x4096 v h (ix2 u c) = v (ix2 u (0 : Fin 1)) := by
  refine broadcastTo_apply v h (ix2 u c) (ix2 u (0 : Fin 1)) fun ax => ?_
  match ax with
  | ⟨0, _⟩ => rfl
  | ⟨1, _⟩ => rfl

/-- An integer comparison at an index compares the elements. -/
theorem cmpi_apply {s : Shape} {w : Nat} (p : CmpIPredicate) (x y : IVec s w) (j : s.Idx) :
    cmpi p x y j = IntOp.cmpi p (x j) (y j) := rfl

/-- An integer sum at an index adds the elements. -/
theorem addi_apply {s : Shape} {w : Nat} (x y : IVec s w) (j : s.Idx) : addi x y j = IntOp.addi (x j) (y j) := rfl

/-- The voxel number column `u` of the tile at grid coordinate `t` stands for: the tile's base `t * 1024` plus `u`, as one
    32-bit word (the sum is below `2 ^ 32`, so nothing wraps). -/
theorem base_word (t : Nat) (u : Nat) :
    IntOp.addi (Scalar.muli (BitVec.ofNat 32 t) 1024#32) (BitVec.ofNat 32 u) = BitVec.ofNat 32 (t * 1024 + u) := by
  show BitVec.ofNat 32 t * BitVec.ofNat 32 1024 + BitVec.ofNat 32 u = _
  rw [← BitVec.ofNat_mul, ← BitVec.ofNat_add]

/-- The scratch after one grid point, at row `r` and column `u`: what it held plus the sum, over the tile's points whose
    voxel number is the tile's base plus `u`, of the point's feature on channel `r` (rows below 64) or of one (row 64). -/
theorem pay2_apply (i : grid0.Coords) (x1 : Vec Ideal S1x1x4096 .i32) (x0 : Vec Ideal S1x64x4096 .f32)
    (acc : Vec Ideal S65x1024 .f32) (r : Fin 65) (u : Fin 1024) :
    k0_pay2 (F := Ideal) i x1 x0 acc (ix2 r u)
      = acc (ix2 r u) + ∑ k : Fin 4096,
          if x1 (ix3 0 0 k) = BitVec.ofNat 32 ((i 1).val * 1024 + u.val)
          then (if h : r.val < 64 then x0 (ix3 0 ⟨r.val, h⟩ k) else 1) else 0 := by
  unfold k0_pay2
  rw [shapeCast_self, addf_apply]
  refine congrArg (acc (ix2 r u) + ·) ?_
  refine (matmul_apply_ix _ _ r u).trans ?_
  refine Finset.sum_congr rfl fun k _ => ?_
  refine Eq.trans ?_ (mul_onehot _ _)
  congr 1
  · -- the stacked operand's row: the features' channel row, or the row of ones
    rw [concat_apply]
    by_cases hr : r.val < 64
    · rw [dif_pos hr, dif_pos hr, truncf_apply]
      exact shapeCast_1ab_ab_apply x0 _ _ k
    · rw [dif_neg hr, dif_neg hr]
      exact one_bf16
  · -- the one-hot entry: does the point's voxel number equal the column's
    rw [truncf_apply, sitofp_apply, extui_apply, cmpi_apply, bcast_col, broadcastTo_1b_ab_apply, addi_apply,
      broadcast_apply, iota_single_apply, shapeCast_1ab_ab_apply, onehot_entry]
    exact if_congr ⟨fun h => h.symm.trans (base_word (i 1).val u.val), fun h => (base_word (i 1).val u.val).trans h.symm⟩
      rfl rfl

end Cert.Voxel.Pay

end
-- ==== Proof.Spec.lean ====
/-
  Voxel averaging, stated once. Points `n` of batch `b` carry a feature vector `f(b, ·, n)` and a voxel number
  `ix(b, n)` (a 32-bit word). Voxel `v` of batch `b` receives, channel by channel, the sum of the features of the
  points whose number is `v`, divided by the number of such points, an empty voxel's count replaced by one:

      avg f ix (b, d, v) = (sum over n with ix(b, n) = v of f(b, d, n)) / max (#{n | ix(b, n) = v}) 1.

  Both sums range over one batch's 32768 points and are sums of extended reals; nothing is asked to be finite.
-/
import Idealize.ShloMosaic.PureOps.Ideal
import Idealize.ShloMosaic.Lib.ValueIdx

noncomputable section

open scoped BigOperators

namespace Cert.Voxel

open Idealize.ShloMosaic Idealize.ShloMosaic.ValueIdx

/-- Features: batch × channel × point. -/
abbrev SFeat : Shape := ⟨3, ![16, 64, 32768]⟩
/-- Voxel numbers: batch × point. -/
abbrev SIdx : Shape := ⟨2, ![16, 32768]⟩

/-- The sum of channel `d` over the points of batch `b` that fall in voxel `v`. -/
def voxelSum (f : SFeat.Idx → EReal) (ix : SIdx.Idx → BitVec 32) (b : Fin 16) (d : Fin 64) (v : Fin 32768) : EReal :=
  ∑ n : Fin 32768, if ix (ix2 b n) = BitVec.ofNat 32 v.val then f (ix3 b d n) else 0

/-- The number of points of batch `b` that fall in voxel `v`, as an extended real. -/
def voxelCount (ix : SIdx.Idx → BitVec 32) (b : Fin 16) (v : Fin 32768) : EReal :=
  ∑ n : Fin 32768, if ix (ix2 b n) = BitVec.ofNat 32 v.val then 1 else 0

/-- The voxel average: the sum over the count, an empty voxel's count read as one. -/
def avg (f : SFeat.Idx → EReal) (ix : SIdx.Idx → BitVec 32) : SFeat.Idx → EReal :=
  fun j => Ideal.div (voxelSum f ix (j 0) (j 1) (j 2)) (max (voxelCount ix (j 0) (j 2)) 1)

theorem avg_apply (f : SFeat.Idx → EReal) (ix : SIdx.Idx → BitVec 32) (b : Fin 16) (d : Fin 64) (v : Fin 32768) :
    avg f ix (ix3 b d v) = Ideal.div (voxelSum f ix b d v) (max (voxelCount ix b v) 1) := rfl

end Cert.Voxel

end
-- ==== Proof.Tile.lean ====
/-
  One tile's share of a voxel's sum, and the eight tiles of a batch put together.

  A tile is 4096 consecutive points of one batch: a block `x0` of their features (1 × 64 × 4096) and a block `x1` of
  their voxel numbers (1 × 1 × 4096). Against a voxel number `w` the tile contributes, in row `r < 64`, the sum of
  channel `r` over its points numbered `w`, and in row 64 the number of such points. Eight tiles, the s-th holding
  points 4096 s … 4096 s + 4095 of batch `b`, contribute together the batch's voxel sum and voxel count: a sum over
  8 × 4096 pairs is the sum over the 32768 points, each point being exactly one pair.
-/
import proofs.«175713_j24764781429164_2_alg».proof.Proof.Spec

noncomputable section

open scoped BigOperators

namespace Cert.Voxel

open Idealize.ShloMosaic Idealize.ShloMosaic.ValueIdx

/-- A block of features: 1 × 64 channels × 4096 points. -/
abbrev SFeatBlk : Shape := ⟨3, ![1, 64, 4096]⟩
/-- A block of voxel numbers: 1 × 1 × 4096 points. -/
abbrev SIdxBlk : Shape := ⟨3, ![1, 1, 4096]⟩

/-- Row `r` of one tile's contribution to voxel number `w`: for `r < 64` the sum of channel `r` over the tile's
    points numbered `w`, for `r = 64` their count. -/
def tileSum (x0 : SFeatBlk.Idx → EReal) (x1 : SIdxBlk.Idx → BitVec 32) (w : Nat) (r : Fin 65) : EReal :=
  ∑ k : Fin 4096, if x1 (ix3 0 0 k) = BitVec.ofNat 32 w then (if h : r.val < 64 then x0 (ix3 0 ⟨r.val, h⟩ k) else 1) else 0

/-- Point `k` of tile `s` among the batch's 32768 points. -/
def pointOf (s : Fin 8) (k : Fin 4096) : Fin 32768 := ⟨s.val * 4096 + k.val, by have := s.isLt; have := k.isLt; omega⟩

/-- A sum over 8 tiles of 4096 points is the sum over the 32768 points. -/
theorem sum_tiles (g : Fin 32768 → EReal) : ∑ s : Fin 8, ∑ k : Fin 4096, g (pointOf s k) = ∑ n : Fin 32768, g n := by
  rw [← Fintype.sum_prod_type']
  refine Fintype.sum_equiv (finProdFinEquiv (m := 8) (n := 4096)) _ _ fun p => ?_
  refine congrArg g (Fin.ext ?_)
  show p.1.val * 4096 + p.2.val = ((finProdFinEquiv p : Fin (8 * 4096)) : Nat)
  rw [finProdFinEquiv_apply_val]
  omega

variable (f : SFeat.Idx → EReal) (ix : SIdx.Idx → BitVec 32) (b : Fin 16)
variable (x0 : Fin 8 → SFeatBlk.Idx → EReal) (x1 : Fin 8 → SIdxBlk.Idx → BitVec 32)

/-- Eight tiles' feature rows make the voxel sum. -/
theorem tiles_voxelSum
    (h0 : ∀ (s : Fin 8) (d : Fin 64) (k : Fin 4096), x0 s (ix3 0 d k) = f (ix3 b d (pointOf s k)))
    (h1 : ∀ (s : Fin 8) (k : Fin 4096), x1 s (ix3 0 0 k) = ix (ix2 b (pointOf s k)))
    (d : Fin 64) (v : Fin 32768) :
    ∑ s : Fin 8, tileSum (x0 s) (x1 s) v.val ⟨d.val, by have := d.isLt; omega⟩ = voxelSum f ix b d v := by
  unfold tileSum voxelSum
  rw [← sum_tiles]
  refine Finset.sum_congr rfl fun s _ => Finset.sum_congr rfl fun k _ => ?_
  rw [h1 s k, dif_pos (show (⟨d.val, by have := d.isLt; omega⟩ : Fin 65).val < 64 from d.isLt)]
  exact if_congr Iff.rfl (h0 s d k) rfl

/-- Eight tiles' count rows make the voxel count. -/
theorem tiles_voxelCount
    (h1 : ∀ (s : Fin 8) (k : Fin 4096), x1 s (ix3 0 0 k) = ix (ix2 b (pointOf s k)))
    (v : Fin 32768) :
    ∑ s : Fin 8, tileSum (x0 s) (x1 s) v.val ⟨64, by omega⟩ = voxelCount ix b v := by
  unfold tileSum voxelCount
  rw [← sum_tiles]
  refine Finset.sum_congr rfl fun s _ => Finset.sum_congr rfl fun k _ => ?_
  rw [h1 s k, dif_neg (show ¬ (⟨64, by omega⟩ : Fin 65).val < 64 from by simp)]

end Cert.Voxel

end
-- ==== Proof.Accumulate.lean ====
/-
  The accumulator across the eight point-tiles of a run.

  Grid point number `n` belongs to the run of eight consecutive points `n - n % 8, …, n - n % 8 + 7`: the same batch
  and the same voxel tile, the point-tiles 0 … 7 in order. The accumulator is cleared at the run's first point and each
  point adds its tile's contribution (`tileSum` of the point's two input blocks against the voxel numbers of the
  current voxel tile), so after point `n` it holds the sum of the contributions of the points of its run up to `n`:
  by induction on `n`, a first point restarting the sum and every other point extending it by one term. After a run's
  last point it holds all eight contributions, and the output block that point stores is the quotient of the channel
  rows by the count row.
-/
import proofs.«175713_j24764781429164_2_alg».proof.Proof.Pieces
import proofs.«175713_j24764781429164_2_alg».proof.Proof.Payloads
import proofs.«175713_j24764781429164_2_alg».proof.Proof.Tile

set_option maxRecDepth 16384

noncomputable section

open scoped BigOperators

open Idealize.ShloMosaic Idealize.ShloMosaic.TcCoe Idealize.SL.Sem Idealize.ShloMosaic.ValueIdx

namespace Cert.Voxel.Acc

open Cert.KernelIdeal Cert.KernelIdeal.Gen Cert.Voxel

/-! ## Sums over a run, as sums over an initial segment of it -/

/-- A run's first point starts the sum. -/
theorem sum_first (g : Nat → EReal) (n : Nat) (h0 : n % 8 = 0) :
    g n = ∑ s ∈ Finset.range (n % 8 + 1), g (n - n % 8 + s) := by
  rw [h0]; simp

/-- Every other point extends it by its own term. -/
theorem sum_next (g : Nat → EReal) (n : Nat) (h0 : ¬ (n + 1) % 8 = 0) :
    (∑ s ∈ Finset.range (n % 8 + 1), g (n - n % 8 + s)) + g (n + 1)
      = ∑ s ∈ Finset.range ((n + 1) % 8 + 1), g (n + 1 - (n + 1) % 8 + s) := by
  have e1 : (n + 1) % 8 = n % 8 + 1 := by omega
  have e2 : n + 1 - (n + 1) % 8 = n - n % 8 := by omega
  have e3 : n - n % 8 + (n % 8 + 1) = n + 1 := by omega
  rw [e2, e1, Finset.sum_range_succ (fun s => g (n - n % 8 + s)) (n % 8 + 1), e3]

/-! ## One point, over any blocks -/

section Point

variable (c : Dev nD) (i : grid0.Coords) (a3 : Memref sig .tc .vmem S1x64x4096 .f32) (h3 : a3.IsWhole)
  (a4 : Memref sig .tc .vmem S1x1x4096 .i32) (h4 : a4.IsWhole) (a5 : Memref sig .tc .vmem S1x64x1024 .f32) (h5 : a5.IsWhole)
  (a6 : Memref sig .tc .vmem S65x1024 .f32) (h6 : a6.IsWhole)
  (x0 : Vec Ideal S1x64x4096 .f32) (x1 : Vec Ideal S1x1x4096 .i32) (xs0 : Vec Ideal S65x1024 .f32)
  (r : Fin 65) (u : Fin 1024)

/-- A first point leaves its own contribution. -/
theorem first_point (hc0 : cond0_0 i) (hc1 : ¬cond0_1 i) :
    sout0_A_0 (F := Ideal) c i a3 h3 a4 h4 a5 h5 a6 h6 hc0 hc1 x0 x1 (ix2 r u)
      = tileSum x0 x1 ((i 1).val * 1024 + u.val) r := by
  rw [Pieces.scratch_A, Pay.pay2_apply, Pay.pay1_apply, zero_add]
  rfl

/-- A middle point adds its contribution to what it found. -/
theorem middle_point (hc0 : ¬cond0_0 i) (hc1 : ¬cond0_1 i) :
    sout0_B_0 (F := Ideal) c i a3 h3 a4 h4 a5 h5 a6 h6 hc0 hc1 x0 x1 xs0 (ix2 r u)
      = xs0 (ix2 r u) + tileSum x0 x1 ((i 1).val * 1024 + u.val) r := by
  rw [Pieces.scratch_B, Pay.pay2_apply]
  rfl

/-- So does a last point, -/
theorem last_point (hc0 : ¬cond0_0 i) (hc1 : cond0_1 i) :
    sout0_C_0 (F := Ideal) c i a3 h3 a4 h4 a5 h5 a6 h6 hc0 hc1 x0 x1 xs0 (ix2 r u)
      = xs0 (ix2 r u) + tileSum x0 x1 ((i 1).val * 1024 + u.val) r := by
  rw [Pieces.scratch_C, Pay.pay2_apply]
  rfl

/-- and the output block it stores is the divide step of the accumulator it leaves. -/
theorem last_point_out (hc0 : ¬cond0_0 i) (hc1 : cond0_1 i) :
    out0_C_2 (F := Ideal) c i a3 h3 a4 h4 a5 h5 a6 h6 hc0 hc1 x0 x1 xs0
      = k0_pay3 (sout0_C_0 (F := Ideal) c i a3 h3 a4 h4 a5 h5 a6 h6 hc0 hc1 x0 x1 xs0) := by
  rw [Pieces.out_C, Pieces.scratch_C]

end Point

/-! ## The accumulator after each point -/

variable (m : (ℓ : Loc nD τ sig) → Buf (Elt Ideal) ℓ) (c : Dev nD)

/-- The contribution of the point-tile at grid point `t` to row `r`, column `u` of the accumulator. -/
def contrib (t : Fin cfg0.N) (r : Fin 65) (u : Fin 1024) : EReal :=
  tileSum (iblk m c 0 t : Vec Ideal S1x64x4096 .f32) (iblk m c 1 t : Vec Ideal S1x1x4096 .i32) ((grid0.coords t 1).val * 1024 + u.val) r

/-- The same by the point's number; nothing beyond the grid. -/
def contribAt (r : Fin 65) (u : Fin 1024) (n : Nat) : EReal :=
  if h : n < cfg0.N then contrib m c ⟨n, h⟩ r u else 0

theorem contribAt_of_lt (r : Fin 65) (u : Fin 1024) (n : Nat) (h : n < cfg0.N) :
    contribAt m c r u n = contrib m c ⟨n, h⟩ r u := dif_pos h

/-- After point `n` the accumulator holds the contributions of the points of `n`'s run up to `n`. -/
theorem scratch_eq (r : Fin 65) (u : Fin 1024) : ∀ (n : Nat) (h : n < cfg0.N),
    (outsAt0 m c n h).2 (ix2 r u) = ∑ s ∈ Finset.range (n % 8 + 1), contribAt m c r u (n - n % 8 + s)
  | 0, h => by
    rw [outsAt0_A m c ⟨0, h⟩ (Nat.zero_mod 8) (by show ¬ 0 % 8 = 7; decide)]
    dsimp only
    refine (first_point c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      scM0_0 (Memref.isWhole_whole _) (iblk m c 0 ⟨0, h⟩) (iblk m c 1 ⟨0, h⟩) r u _ _).trans ?_
    rw [← sum_first (contribAt m c r u) 0 (Nat.zero_mod 8), contribAt_of_lt m c r u 0 h]
    rfl
  | n + 1, h => by
    by_cases h0 : (n + 1) % 8 = 0
    · have h1 : ¬ (n + 1) % 8 = 7 := by omega
      rw [outsAt0_A m c ⟨n + 1, h⟩ h0 h1]
      dsimp only
      refine (first_point c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        scM0_0 (Memref.isWhole_whole _) (iblk m c 0 ⟨n + 1, h⟩) (iblk m c 1 ⟨n + 1, h⟩) r u _ _).trans ?_
      rw [← sum_first (contribAt m c r u) (n + 1) h0, contribAt_of_lt m c r u (n + 1) h]
      rfl
    · have ih := scratch_eq r u n (Nat.lt_of_succ_lt h)
      by_cases h1 : (n + 1) % 8 = 7
      · rw [outsAt0_C m c ⟨n + 1, h⟩ h0 h1]
        dsimp only
        refine (last_point c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          scM0_0 (Memref.isWhole_whole _) (iblk m c 0 ⟨n + 1, h⟩) (iblk m c 1 ⟨n + 1, h⟩) (outsAt0 m c n (Nat.lt_of_succ_lt h)).2 r u _ _).trans ?_
        rw [ih, ← sum_next (contribAt m c r u) n h0, contribAt_of_lt m c r u (n + 1) h]
        rfl
      · rw [outsAt0_B m c ⟨n + 1, h⟩ h0 h1]
        dsimp only
        refine (middle_point c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          scM0_0 (Memref.isWhole_whole _) (iblk m c 0 ⟨n + 1, h⟩) (iblk m c 1 ⟨n + 1, h⟩) (outsAt0 m c n (Nat.lt_of_succ_lt h)).2 r u _ _).trans ?_
        rw [ih, ← sum_next (contribAt m c r u) n h0, contribAt_of_lt m c r u (n + 1) h]
        rfl

/-- The output block a run's last point stores is the divide step of the accumulator after that point. -/
theorem out_last (t : Fin cfg0.N) (h1 : t.val % 8 = 7) :
    (outsAt0 m c t.val t.isLt).1 = k0_pay3 (outsAt0 m c t.val t.isLt).2 := by
  have h0 : ¬ t.val % 8 = 0 := by omega
  rw [outsAt0_C m c t h0 h1]
  dsimp only
  exact last_point_out c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2 _ _

end Cert.Voxel.Acc

end
-- ==== Proof.BlockReads.lean ====
/-
  The windows' blocks read at an index. The grid has 16 batches, 32 voxel tiles and 8 point tiles; point `t` has the
  coordinates `(t / 256, t / 8 % 32, t % 8)`. The features' block at `t` is batch `t / 256`, all 64 channels, points
  `(t % 8) * 4096 …`; the voxel numbers' block is the same batch and points; the output's block is batch `t / 256`, all
  channels, voxels `(t / 8 % 32) * 1024 …`, written back at the last point tile of each voxel tile. Every index of the
  output array lies in exactly such a block.
-/
import proofs.«175713_j24764781429164_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.Voxel.Blk

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps in closed form, decided over the grid: the features' and the voxel numbers' blocks move with
    the batch and the point tile. -/
theorem idx_in : ∀ t : Fin cfg0.N, win0_0.index t (0 : Fin 3) = t.val / 256 ∧ win0_0.index t (1 : Fin 3) = 0
    ∧ win0_0.index t (2 : Fin 3) = t.val % 8
    ∧ win0_1.index t (0 : Fin 3) = t.val / 256 ∧ win0_1.index t (1 : Fin 3) = 0
    ∧ win0_1.index t (2 : Fin 3) = t.val % 8 :=
  (by decide +kernel : ∀ t : Fin grid0.N, _)

/-- The output's block moves with the batch and the voxel tile, and the grid's middle coordinate is the voxel tile. -/
theorem idx_out : ∀ t : Fin cfg0.N, win0_2.index t (0 : Fin 3) = t.val / 256 ∧ win0_2.index t (1 : Fin 3) = 0
    ∧ win0_2.index t (2 : Fin 3) = t.val / 8 % 32 ∧ (grid0.coords t 1).val = t.val / 8 % 32 :=
  (by decide +kernel : ∀ t : Fin grid0.N, _)

/-- The two together, in one statement. -/
theorem idx_facts : ∀ t : Fin cfg0.N, win0_0.index t (0 : Fin 3) = t.val / 256 ∧ win0_0.index t (1 : Fin 3) = 0
    ∧ win0_0.index t (2 : Fin 3) = t.val % 8
    ∧ win0_1.index t (0 : Fin 3) = t.val / 256 ∧ win0_1.index t (1 : Fin 3) = 0
    ∧ win0_1.index t (2 : Fin 3) = t.val % 8
    ∧ win0_2.index t (0 : Fin 3) = t.val / 256 ∧ win0_2.index t (1 : Fin 3) = 0
    ∧ win0_2.index t (2 : Fin 3) = t.val / 8 % 32 ∧ (grid0.coords t 1).val = t.val / 8 % 32 := fun t => by
  obtain ⟨a0, a1, a2, b0, b1, b2⟩ := idx_in t
  obtain ⟨c0, c1, c2, g⟩ := idx_out t
  exact ⟨a0, a1, a2, b0, b1, b2, c0, c1, c2, g⟩

/-- The features' block at point `t`, at channel `d` and point `k` of the tile: the array at batch `t / 256`, channel `d`,
    point `(t % 8) * 4096 + k`. -/
theorem iblk0_apply (c : Dev nD) (t : Fin cfg0.N) (d : Fin 64) (k : Fin 4096) :
    (iblk m c 0 t : Vec Ideal S1x64x4096 .f32) (ix3 0 d k)
      = V m c main_arg0 (ix3 ⟨t.val / 256, by
            have hN : t.val < 4096 := lt_of_lt_of_eq t.isLt (show cfg0.N = 4096 from N_0); omega⟩ d
          ⟨t.val % 8 * 4096 + k.val, by omega⟩) := by
  obtain ⟨e0, e1, e2, -, -, -⟩ := idx_in t
  unfold iblk
  rw [View.read_apply]
  show V m c main_arg0 _ = V m c main_arg0 _
  congr 1
  funext a
  apply Fin.ext
  match a with
  | ⟨0, _⟩ => show win0_0.index t (0 : Fin 3) * 1 + 1 * 0 = t.val / 256; omega
  | ⟨1, _⟩ => show win0_0.index t (1 : Fin 3) * 64 + 1 * d.val = d.val; omega
  | ⟨2, _⟩ => show win0_0.index t (2 : Fin 3) * 4096 + 1 * k.val = t.val % 8 * 4096 + k.val; omega

/-- The voxel numbers' block at point `t`, at point `k` of the tile: the array at batch `t / 256`, point
    `(t % 8) * 4096 + k`. -/
theorem iblk1_apply (c : Dev nD) (t : Fin cfg0.N) (k : Fin 4096) :
    (iblk m c 1 t : Vec Ideal S1x1x4096 .i32) (ix3 0 0 k)
      = V m c main_v34 (ix3 ⟨t.val / 256, by
            have hN : t.val < 4096 := lt_of_lt_of_eq t.isLt (show cfg0.N = 4096 from N_0); omega⟩ 0
          ⟨t.val % 8 * 4096 + k.val, by omega⟩) := by
  obtain ⟨-, -, -, e0, e1, e2⟩ := idx_in t
  unfold iblk
  rw [View.read_apply]
  show V m c main_v34 _ = V m c main_v34 _
  congr 1
  funext a
  apply Fin.ext
  match a with
  | ⟨0, _⟩ => show win0_1.index t (0 : Fin 3) * 1 + 1 * 0 = t.val / 256; omega
  | ⟨1, _⟩ => show win0_1.index t (1 : Fin 3) * 1 + 1 * 0 = 0; omega
  | ⟨2, _⟩ => show win0_1.index t (2 : Fin 3) * 4096 + 1 * k.val = t.val % 8 * 4096 + k.val; omega

/-- Where the output's block at point `t` sits in the array: channel `d` and column `u` of the block are batch `t / 256`,
    channel `d`, voxel `(t / 8 % 32) * 1024 + u`. -/
theorem blk2_emb (t : Fin cfg0.N) (d : Fin 64) (u : Fin 1024) :
    (((cfg0.win 2).blk t).view.emb (ix3 0 d u) : S16x64x32768.Idx)
      = ix3 ⟨t.val / 256, by
            have hN : t.val < 4096 := lt_of_lt_of_eq t.isLt (show cfg0.N = 4096 from N_0); omega⟩ d
          ⟨t.val / 8 % 32 * 1024 + u.val, by omega⟩ := by
  obtain ⟨e0, e1, e2, -⟩ := idx_out t
  funext a
  apply Fin.ext
  match a with
  | ⟨0, _⟩ => show win0_2.index t (0 : Fin 3) * 1 + 1 * 0 = t.val / 256; omega
  | ⟨1, _⟩ => show win0_2.index t (1 : Fin 3) * 64 + 1 * d.val = d.val; omega
  | ⟨2, _⟩ => show win0_2.index t (2 : Fin 3) * 1024 + 1 * u.val = t.val / 8 % 32 * 1024 + u.val; omega

/-- An index of the output array is in point `t`'s block iff each coordinate is in the block's range on its axis. -/
theorem mem_blk2 (t : Fin cfg0.N) (i : S16x64x32768.Idx) :
    i ∈ ((cfg0.win 2).blk t).view.set ↔ ∀ a : Fin 3, win0_2.index t a * S1x64x1024.size a ≤ (i a).val
      ∧ (i a).val < win0_2.index t a * S1x64x1024.size a + S1x64x1024.size a := by
  show i ∈ ((View.whole main_v35).slice (win0_2.rect t)).set ↔ _
  rw [View.set_slice_whole, Rect.mem_set_unit]
  exact Iff.rfl

/-- Every index of the output array lies in the block of a point that writes it back: the last point tile of the index's
    batch and voxel tile. -/
theorem cover (i : S16x64x32768.Idx) :
    ∃ t : Fin cfg0.N, (cfg0.win 2).flush t = true ∧ i ∈ ((cfg0.win 2).blk t).view.set := by
  have h0 : (i 0).val < 16 := (i 0).isLt
  have h1 : (i 1).val < 64 := (i 1).isLt
  have h2 : (i 2).val < 32768 := (i 2).isLt
  have hN : cfg0.N = 4096 := N_0
  obtain ⟨t, tv⟩ : ∃ t : Fin cfg0.N, t.val = ((i 0).val * 32 + (i 2).val / 1024) * 8 + 7 :=
    ⟨⟨((i 0).val * 32 + (i 2).val / 1024) * 8 + 7, lt_of_lt_of_eq (by omega) hN.symm⟩, rfl⟩
  obtain ⟨e0, e1, e2, -⟩ := idx_out t
  refine ⟨t, (flush0_2 t).mpr (by omega), ?_⟩
  rw [mem_blk2]
  intro a
  match a with
  | ⟨0, _⟩ =>
    show win0_2.index t (0 : Fin 3) * 1 ≤ (i 0).val ∧ (i 0).val < win0_2.index t (0 : Fin 3) * 1 + 1; omega
  | ⟨1, _⟩ =>
    show win0_2.index t (1 : Fin 3) * 64 ≤ (i 1).val ∧ (i 1).val < win0_2.index t (1 : Fin 3) * 64 + 64; omega
  | ⟨2, _⟩ =>
    show win0_2.index t (2 : Fin 3) * 1024 ≤ (i 2).val ∧ (i 2).val < win0_2.index t (2 : Fin 3) * 1024 + 1024; omega

end Cert.Voxel.Blk

end
-- ==== Proof.LibStageRead.lean ====
/-
  Reading ONE operation's result inside a long line of host operations.
  `StableHlo.after ops V` folds the operations over the buffers' contents `V`. When the line is in single-assignment form —
  the references it writes are listed, in order, by `dsts`, and no later operation writes them again — the contents of the
  buffer `y` that the operation at position `i` writes, after the WHOLE line, are that operation's function of the contents,
  after the whole line, of the buffers it reads: nothing after position `i` writes `y`, and nothing from position `i` on writes
  a buffer it reads. One lemma per shape of operation (no operand, one, two, three, a reshape, four operands packed),
  each closed at a literal line by `rfl` (the operation at position `i`) and `decide` (the two non-memberships).
-/
import Idealize.ShloMosaic.Lib.StableHlo.Run

namespace Idealize.ShloMosaic.StableHlo

variable {τ : Topo} {sig : RefSig} {Val : EltTy → Type}

/-- The line `ops` writes, operation by operation, at most the references `dsts` lists, in order. -/
def WritesAre (ops : List (HloOp τ sig Val)) (dsts : List (Ref sig .tc)) : Prop :=
  List.Forall₂ (fun op d => op.writes ⊆ ({Proc.devRef (τ := τ) .tc d} : Finset (DevRef τ sig))) ops dsts

theorem WritesAre.forall_sub {ops : List (HloOp τ sig Val)} {dsts : List (Ref sig .tc)} (h : WritesAre ops dsts) :
    ops.Forall fun op => op.writes ⊆ (dsts.map (Proc.devRef (τ := τ) .tc)).toFinset := by
  induction h with
  | nil => exact trivial
  | @cons op d ops dsts hd _ ih =>
    rw [List.forall_cons]
    refine ⟨fun b hb => ?_, ?_⟩
    · rw [Finset.mem_singleton.mp (hd hb)]; simp
    · exact List.forall_iff_forall_mem.mpr fun o ho b hb => by
        have := (List.forall_iff_forall_mem.mp ih) o ho hb
        simp only [List.map_cons, List.toFinset_cons, Finset.mem_insert]; exact Or.inr this

theorem WritesAre.drop {ops : List (HloOp τ sig Val)} {dsts : List (Ref sig .tc)} (h : WritesAre ops dsts) (n : ℕ) :
    WritesAre (ops.drop n) (dsts.drop n) := List.forall₂_drop n h

/-- The line run whole is its first `n` operations, then the rest. -/
theorem after_take_drop (ops : List (HloOp τ sig Val)) (n : ℕ) (V : Valuation τ sig Val) :
    after ops V = after (ops.drop n) (after (ops.take n) V) := by
  conv_lhs => rw [← List.take_append_drop n ops]
  induction ops.take n generalizing V with
  | nil => rfl
  | cons op l ih => exact ih (op.result V)

/-- A reference nothing from position `n` on writes holds, after the whole line, what the first `n` operations leave. -/
theorem after_keep_from {ops : List (HloOp τ sig Val)} {dsts : List (Ref sig .tc)} (h : WritesAre ops dsts) (n : ℕ)
    {r : Ref sig .tc} (hr : r ∉ dsts.drop n) (V : Valuation τ sig Val) :
    after ops V (Proc.devRef .tc r) = after (ops.take n) V (Proc.devRef .tc r) := by
  rw [after_take_drop ops n V]
  exact after_of_writes_sub _ _ (h.drop n).forall_sub hr

/-- What the operation at position `i` writes holds, after the whole line, what that operation left there. -/
theorem after_read_at {ops : List (HloOp τ sig Val)} {dsts : List (Ref sig .tc)} (h : WritesAre ops dsts) (i : ℕ)
    {op : HloOp τ sig Val} (hop : ops[i]? = some op) {y : Ref sig .tc} (hy : y ∉ dsts.drop (i + 1)) (V : Valuation τ sig Val) :
    after ops V (Proc.devRef .tc y) = op.result (after (ops.take i) V) (Proc.devRef .tc y) := by
  rw [after_keep_from h (i + 1) hy V, List.take_succ, hop]
  show after (ops.take i ++ [op]) V _ = _
  induction ops.take i generalizing V with
  | nil => rfl
  | cons o l ih => exact ih (o.result V)

section Shapes

variable {ops : List (HloOp τ sig Val)} {dsts : List (Ref sig .tc)} (h : WritesAre ops dsts) (i : ℕ) (V : Valuation τ sig Val)
include h

theorem read_nullary {y : Ref sig .tc} {v : y.ty.Contents Val} {hy}
    (hop : ops[i]? = some (nullary (τ := τ) y v hy)) (hy' : y ∉ dsts.drop (i + 1)) :
    after ops V (Proc.devRef .tc y) = v := by
  rw [after_read_at h i hop hy' V, nullary_result]

theorem read_unary {x y : Ref sig .tc} {f : x.ty.Contents Val → y.ty.Contents Val} {hx hy}
    (hop : ops[i]? = some (unary (τ := τ) x y f hx hy)) (hy' : y ∉ dsts.drop (i + 1)) (hx' : x ∉ dsts.drop i) :
    after ops V (Proc.devRef .tc y) = f (after ops V (Proc.devRef .tc x)) := by
  rw [after_read_at h i hop hy' V, unary_result, after_keep_from h i hx' V]

theorem read_binary {a b y : Ref sig .tc} {f : a.ty.Contents Val → b.ty.Contents Val → y.ty.Contents Val} {ha hb hy}
    (hop : ops[i]? = some (binary (τ := τ) a b y f ha hb hy)) (hy' : y ∉ dsts.drop (i + 1))
    (ha' : a ∉ dsts.drop i) (hb' : b ∉ dsts.drop i) :
    after ops V (Proc.devRef .tc y) = f (after ops V (Proc.devRef .tc a)) (after ops V (Proc.devRef .tc b)) := by
  rw [after_read_at h i hop hy' V, binary_result, after_keep_from h i ha' V, after_keep_from h i hb' V]

theorem read_ternary {c a b y : Ref sig .tc} {f : c.ty.Contents Val → a.ty.Contents Val → b.ty.Contents Val → y.ty.Contents Val} {hc ha hb hy}
    (hop : ops[i]? = some (ternary (τ := τ) c a b y f hc ha hb hy)) (hy' : y ∉ dsts.drop (i + 1))
    (hc' : c ∉ dsts.drop i) (ha' : a ∉ dsts.drop i) (hb' : b ∉ dsts.drop i) :
    after ops V (Proc.devRef .tc y)
      = f (after ops V (Proc.devRef .tc c)) (after ops V (Proc.devRef .tc a)) (after ops V (Proc.devRef .tc b)) := by
  rw [after_read_at h i hop hy' V, ternary_result, after_keep_from h i hc' V, after_keep_from h i ha' V, after_keep_from h i hb' V]

theorem read_reshape {x y : Ref sig .tc} {he : x.ty.elt = y.ty.elt} {hn : x.ty.shape.ShapeCasts y.ty.shape} {hx hy}
    (hop : ops[i]? = some (reshape (τ := τ) (Val := Val) x y he hn hx hy)) (hy' : y ∉ dsts.drop (i + 1)) (hx' : x ∉ dsts.drop i) :
    after ops V (Proc.devRef .tc y) = fun j => he ▸ shapeCast y.ty.shape (after ops V (Proc.devRef .tc x)) hn j := by
  rw [after_read_at h i hop hy' V, reshape_result, after_keep_from h i hx' V]

theorem read_nary4 {x a b c y : Ref sig .tc}
    {f : ((k : Fin 4) → ((![x, a, b, c] : Fin 4 → Ref sig .tc) k).ty.Contents Val) → y.ty.Contents Val} {hxs hy}
    (hop : ops[i]? = some (nary (τ := τ) ![x, a, b, c] y f hxs hy)) (hy' : y ∉ dsts.drop (i + 1))
    (hx' : x ∉ dsts.drop i) (ha' : a ∉ dsts.drop i) (hb' : b ∉ dsts.drop i) (hc' : c ∉ dsts.drop i) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun j => j.elim0))))) := by
  rw [after_read_at h i hop hy' V, nary4_result, after_keep_from h i hx' V, after_keep_from h i ha' V,
    after_keep_from h i hb' V, after_keep_from h i hc' V]

end Shapes

end Idealize.ShloMosaic.StableHlo
-- ==== Proof.LibTypedRef.lean ====
import Idealize.ShloMosaic.Lib.StableHlo.Run

/-! ## A function applied through identity transports

A host operation of a module-local function is stated over typed references: its function is wrapped in transports
along "this buffer's type is the value's type". At a literal reference both sides of that equation are the same type, so
the transports are the identity; these lemmas say so for an operation with no, one, two or three operands, WITHOUT
looking inside the function. (Closing such a goal by `rfl` instead can send the unifier into the function's body.) -/

namespace Idealize.ShloMosaic.StableHlo

universe u

theorem cast_app₀ {γ : Sort u} (hγ : γ = γ) (c : γ) : cast hγ c = c := rfl

theorem cast_app₁ {α γ : Sort u} (hα : α = α) (hγ : γ = γ) (f : α → γ) (x : α) :
    cast hγ (f (cast hα x)) = f x := rfl

theorem cast_app₂ {α β γ : Sort u} (hα : α = α) (hβ : β = β) (hγ : γ = γ) (f : α → β → γ) (x : α) (y : β) :
    cast hγ (f (cast hα x) (cast hβ y)) = f x y := rfl

theorem cast_app₃ {α β δ γ : Sort u} (hα : α = α) (hβ : β = β) (hδ : δ = δ) (hγ : γ = γ) (f : α → β → δ → γ)
    (x : α) (y : β) (z : δ) : cast hγ (f (cast hα x) (cast hβ y) (cast hδ z)) = f x y z := rfl

end Idealize.ShloMosaic.StableHlo
-- ==== Proof.HostPrefix.lean ====
/-
  The host operations before the kernel region, read one at a time.

  Before launching the kernel the program computes, from the coordinates alone, the voxel number of every point: it
  centres each batch's coordinates, scales them by twice the largest distance from the centre, shifts and scales into
  [0, 32], clips to [0, 31], rounds to the nearest integer (ties to even), converts to 32-bit integers and combines the
  three coordinates as 1024 x + 32 y + z. These are 55 operations, each writing a buffer of its own, so the buffer an
  operation writes holds, when the region starts, that operation's function of what its operands' buffers hold then.
  Going down the line once, every buffer holds the value the reference program's operation of the same name computes
  from the same coordinates: the two programs spell this computation identically. What is used afterwards is the last
  two facts: the clipped coordinates (the program's second result) and the voxel numbers' array the kernel reads.
-/
import proofs.«175713_j24764781429164_2_alg».proof.Proof.Gen.KernelIdeal.Frame
import proofs.«175713_j24764781429164_2_alg».proof.Proof.Gen.ReferenceIdeal.Read
import proofs.«175713_j24764781429164_2_alg».proof.Proof.LibStageRead
import proofs.«175713_j24764781429164_2_alg».proof.Proof.LibTypedRef
import Idealize.ShloMosaic.Lib.StableHlo.Run
import Idealize.ShloMosaic.Lib.Tactic

set_option maxRecDepth 16384

noncomputable section

open Idealize.ShloMosaic Idealize.ShloMosaic.TcCoe Idealize.SL.Sem

namespace Cert.Voxel.Host

open Cert.KernelIdeal Cert.KernelIdeal.Gen

variable {F : FTy → Type} [FloatOps F]

/-- The host operations before the kernel region, as one line. -/
abbrev ops : List (HloOp τ sig (Elt F)) := List.flatten [hostOps0, hostOps0_1, hostOps0_2, hostOps0_3, hostOps0_4, hostOps0_5]

/-- The buffer each of them writes, in order: every buffer is written once. -/
abbrev dsts : List (Ref sig .tc) := [main_cst, main_v0, main_v1, main_cst_0, main_v2, main_v3, main_v4, main_v5, main_call0_v0, main_call0_cst, main_call0_v1, main_call0_v2, main_v6, main_cst_1, main_v7, main_v8, main_cst_2, main_v9, main_v10, main_cst_3, main_v11, main_v12, main_v13, main_v14, main_cst_4, main_v15, main_v16, main_cst_5, main_v17, main_v18, main_c, main_c_6, main_call1_v0, main_call1_v1, main_call1_v2, main_call1_v3, main_call1_v4, main_v19, main_v20, main_v21, main_v22, main_v23, main_c_7, main_v24, main_v25, main_v26, main_v27, main_c_8, main_v28, main_v29, main_v30, main_v31, main_v32, main_v33, main_v34]

theorem hW : StableHlo.WritesAre (τ := τ) (ops (F := F)) dsts := by
  simp only [ops, hostOps0, hostOps0_1, hostOps0_2, hostOps0_3, hostOps0_4, hostOps0_5, List.flatten_cons, List.flatten_nil,
    List.append_nil, List.cons_append, List.nil_append, dsts, StableHlo.WritesAre]
  repeat' constructor
  all_goals (simp only [StableHlo.nullary_writes, StableHlo.unary_writes, StableHlo.binary_writes, StableHlo.reshape_writes]; exact Finset.Subset.refl _)

variable (m : (ℓ : Loc nD τ sig) → Buf (Elt Ideal) ℓ)

theorem st_main_arg1 (c : Dev nD) : StableHlo.after (ops (F := Ideal)) (fun b => m (c, b)) (Proc.devRef .tc main_arg1) = m ((c : Thread nD τ).loc main_arg1) := V_main_arg1 m c

theorem st_main_cst (c : Dev nD) : StableHlo.after (ops (F := Ideal)) (fun b => m (c, b)) (Proc.devRef .tc main_cst) = (Cert.ReferenceIdeal.Read.val_main_cst (F := Ideal)) := by
  refine (StableHlo.read_nullary (hW (F := Ideal)) 0 (fun b => m (c, b)) (y := main_cst) rfl (by decide)).trans ?_
  rfl

theorem st_main_v0 (c : Dev nD) : StableHlo.after (ops (F := Ideal)) (fun b => m (c, b)) (Proc.devRef .tc main_v0) = (Cert.ReferenceIdeal.Read.val_main_v0 (F := Ideal) (m ((c : Thread nD τ).loc main_arg1))) := by
  refine (StableHlo.read_binary (hW (F := Ideal)) 1 (fun b => m (c, b)) (a := main_arg1) (b := main_cst) (y := main_v0) rfl (by decide) (by decide) (by decide)).trans ?_
  rw [st_main_arg1 m c, st_main_cst m c]
  rfl

theorem st_main_v1 (c : Dev nD) : StableHlo.after (ops (F := Ideal)) (fun b => m (c, b)) (Proc.devRef .tc main_v1) = (Cert.ReferenceIdeal.Read.val_main_v1 (F := Ideal) (m ((c : Thread nD τ).loc main_arg1))) := by
  refine (StableHlo.read_unary (hW (F := Ideal)) 2 (fun b => m (c, b)) (x := main_v0) (y := main_v1) rfl (by decide) (by decide)).trans ?_
  rw [st_main_v0 m c]
  rfl

theorem st_main_cst_0 (c : Dev nD) : StableHlo.after (ops (F := Ideal)) (fun b => m (c, b)) (Proc.devRef .tc main_cst_0) = (Cert.ReferenceIdeal.Read.val_main_cst_0 (F := Ideal)) := by
  refine (StableHlo.read_nullary (hW (F := Ideal)) 3 (fun b => m (c, b)) (y := main_cst_0) rfl (by decide)).trans ?_
  rfl

theorem st_main_v2 (c : Dev nD) : StableHlo.after (ops (F := Ideal)) (fun b => m (c, b)) (Proc.devRef .tc main_v2) = (Cert.ReferenceIdeal.Read.val_main_v2 (F := Ideal)) := by
  refine (StableHlo.read_unary (hW (F := Ideal)) 4 (fun b => m (c, b)) (x := main_cst_0) (y := main_v2) rfl (by decide) (by decide)).trans ?_
  rw [st_main_cst_0 m c]
  rfl

theorem st_main_v3 (c : Dev nD) : StableHlo.after (ops (F := Ideal)) (fun b => m (c, b)) (Proc.devRef .tc main_v3) = (Cert.ReferenceIdeal.Read.val_main_v3 (F := Ideal) (m ((c : Thread nD τ).loc main_arg1))) := by
  refine (StableHlo.read_binary (hW (F := Ideal)) 5 (fun b => m (c, b)) (a := main_v1) (b := main_v2) (y := main_v3) rfl (by decide) (by decide) (by decide)).trans ?_
  rw [st_main_v1 m c, st_main_v2 m c]
  rfl

theorem st_main_v4 (c : Dev nD) : StableHlo.after (ops (F := Ideal)) (fun b => m (c, b)) (Proc.devRef .tc main_v4) = (Cert.ReferenceIdeal.Read.val_main_v4 (F := Ideal) (m ((c : Thread nD τ).loc main_arg1))) := by
  refine (StableHlo.read_unary (hW (F := Ideal)) 6 (fun b => m (c, b)) (x := main_v3) (y := main_v4) rfl (by decide) (by decide)).trans ?_
  rw [st_main_v3 m c]
  rfl

theorem st_main_v5 (c : Dev nD) : StableHlo.after (ops (F := Ideal)) (fun b => m (c, b)) (Proc.devRef .tc main_v5) = (Cert.ReferenceIdeal.Read.val_main_v5 (F := Ideal) (m ((c : Thread nD τ).loc main_arg1))) := by
  refine (StableHlo.read_binary (hW (F := Ideal)) 7 (fun b => m (c, b)) (a := main_arg1) (b := main_v4) (y := main_v5) rfl (by decide) (by decide) (by decide)).trans ?_
  rw [st_main_arg1 m c, st_main_v4 m c]
  rfl

theorem st_main_call0_v0 (c : Dev nD) : StableHlo.after (ops (F := Ideal)) (fun b => m (c, b)) (Proc.devRef .tc main_call0_v0) = (Cert.ReferenceIdeal.Read.val_main_call0_v0 (F := Ideal) (m ((c : Thread nD τ).loc main_arg1))) := by
  refine (StableHlo.read_binary (hW (F := Ideal)) 8 (fun b => m (c, b)) (a := main_v5) (b := main_v5) (y := main_call0_v0) rfl (by decide) (by decide) (by decide)).trans ?_
  rw [st_main_v5 m c]
  first | exact (StableHlo.cast_app₂ _ _ _ _ _ _).trans rfl | rfl

theorem st_main_call0_cst (c : Dev nD) : StableHlo.after (ops (F := Ideal)) (fun b => m (c, b)) (Proc.devRef .tc main_call0_cst) = (Cert.ReferenceIdeal.Read.val_main_call0_cst (F := Ideal)) := by
  refine (StableHlo.read_nullary (hW (F := Ideal)) 9 (fun b => m (c, b)) (y := main_call0_cst) rfl (by decide)).trans ?_
  first | exact (StableHlo.cast_app₀ _ _).trans rfl | rfl

theorem st_main_call0_v1 (c : Dev nD) : StableHlo.after (ops (F := Ideal)) (fun b => m (c, b)) (Proc.devRef .tc main_call0_v1) = (Cert.ReferenceIdeal.Read.val_main_call0_v1 (F := Ideal) (m ((c : Thread nD τ).loc main_arg1))) := by
  refine (StableHlo.read_binary (hW (F := Ideal)) 10 (fun b => m (c, b)) (a := main_call0_v0) (b := main_call0_cst) (y := main_call0_v1) rfl (by decide) (by decide) (by decide)).trans ?_
  rw [st_main_call0_v0 m c, st_main_call0_cst m c]
  first | exact (StableHlo.cast_app₂ _ _ _ _ _ _).trans rfl | rfl

theorem st_main_call0_v2 (c : Dev nD) : StableHlo.after (ops (F := Ideal)) (fun b => m (c, b)) (Proc.devRef .tc main_call0_v2) = (Cert.ReferenceIdeal.Read.val_main_call0_v2 (F := Ideal) (m ((c : Thread nD τ).loc main_arg1))) := by
  refine (StableHlo.read_unary (hW (F := Ideal)) 11 (fun b => m (c, b)) (x := main_call0_v1) (y := main_call0_v2) rfl (by decide) (by decide)).trans ?_
  rw [st_main_call0_v1 m c]
  first | exact (StableHlo.cast_app₁ _ _ _ _).trans rfl | rfl

theorem st_main_v6 (c : Dev nD) : StableHlo.after (ops (F := Ideal)) (fun b => m (c, b)) (Proc.devRef .tc main_v6) = (Cert.ReferenceIdeal.Read.val_main_v6 (F := Ideal) (m ((c : Thread nD τ).loc main_arg1))) := by
  refine (StableHlo.read_unary (hW (F := Ideal)) 12 (fun b => m (c, b)) (x := main_call0_v2) (y := main_v6) rfl (by decide) (by decide)).trans ?_
  rw [st_main_call0_v2 m c]
  first | exact (StableHlo.cast_app₁ _ _ _ _).trans rfl | rfl

theorem st_main_cst_1 (c : Dev nD) : StableHlo.after (ops (F := Ideal)) (fun b => m (c, b)) (Proc.devRef .tc main_cst_1) = (Cert.ReferenceIdeal.Read.val_main_cst_1 (F := Ideal)) := by
  refine (StableHlo.read_nullary (hW (F := Ideal)) 13 (fun b => m (c, b)) (y := main_cst_1) rfl (by decide)).trans ?_
  rfl

theorem st_main_v7 (c : Dev nD) : StableHlo.after (ops (F := Ideal)) (fun b => m (c, b)) (Proc.devRef .tc main_v7) = (Cert.ReferenceIdeal.Read.val_main_v7 (F := Ideal) (m ((c : Thread nD τ).loc main_arg1))) := by
  refine (StableHlo.read_binary (hW (F := Ideal)) 14 (fun b => m (c, b)) (a := main_v6) (b := main_cst_1) (y := main_v7) rfl (by decide) (by decide) (by decide)).trans ?_
  rw [st_main_v6 m c, st_main_cst_1 m c]
  rfl

theorem st_main_v8 (c : Dev nD) : StableHlo.after (ops (F := Ideal)) (fun b => m (c, b)) (Proc.devRef .tc main_v8) = (Cert.ReferenceIdeal.Read.val_main_v8 (F := Ideal) (m ((c : Thread nD τ).loc main_arg1))) := by
  refine (StableHlo.read_unary (hW (F := Ideal)) 15 (fun b => m (c, b)) (x := main_v7) (y := main_v8) rfl (by decide) (by decide)).trans ?_
  rw [st_main_v7 m c]
  rfl

theorem st_main_cst_2 (c : Dev nD) : StableHlo.after (ops (F := Ideal)) (fun b => m (c, b)) (Proc.devRef .tc main_cst_2) = (Cert.ReferenceIdeal.Read.val_main_cst_2 (F := Ideal)) := by
  refine (StableHlo.read_nullary (hW (F := Ideal)) 16 (fun b => m (c, b)) (y := main_cst_2) rfl (by decide)).trans ?_
  rfl

theorem st_main_v9 (c : Dev nD) : StableHlo.after (ops (F := Ideal)) (fun b => m (c, b)) (Proc.devRef .tc main_v9) = (Cert.ReferenceIdeal.Read.val_main_v9 (F := Ideal)) := by
  refine (StableHlo.read_unary (hW (F := Ideal)) 17 (fun b => m (c, b)) (x := main_cst_2) (y := main_v9) rfl (by decide) (by decide)).trans ?_
  rw [st_main_cst_2 m c]
  rfl

theorem st_main_v10 (c : Dev nD) : StableHlo.after (ops (F := Ideal)) (fun b => m (c, b)) (Proc.devRef .tc main_v10) = (Cert.ReferenceIdeal.Read.val_main_v10 (F := Ideal) (m ((c : Thread nD τ).loc main_arg1))) := by
  refine (StableHlo.read_binary (hW (F := Ideal)) 18 (fun b => m (c, b)) (a := main_v8) (b := main_v9) (y := main_v10) rfl (by decide) (by decide) (by decide)).trans ?_
  rw [st_main_v8 m c, st_main_v9 m c]
  rfl

theorem st_main_cst_3 (c : Dev nD) : StableHlo.after (ops (F := Ideal)) (fun b => m (c, b)) (Proc.devRef .tc main_cst_3) = (Cert.ReferenceIdeal.Read.val_main_cst_3 (F := Ideal)) := by
  refine (StableHlo.read_nullary (hW (F := Ideal)) 19 (fun b => m (c, b)) (y := main_cst_3) rfl (by decide)).trans ?_
  rfl

theorem st_main_v11 (c : Dev nD) : StableHlo.after (ops (F := Ideal)) (fun b => m (c, b)) (Proc.devRef .tc main_v11) = (Cert.ReferenceIdeal.Read.val_main_v11 (F := Ideal)) := by
  refine (StableHlo.read_unary (hW (F := Ideal)) 20 (fun b => m (c, b)) (x := main_cst_3) (y := main_v11) rfl (by decide) (by decide)).trans ?_
  rw [st_main_cst_3 m c]
  rfl

theorem st_main_v12 (c : Dev nD) : StableHlo.after (ops (F := Ideal)) (fun b => m (c, b)) (Proc.devRef .tc main_v12) = (Cert.ReferenceIdeal.Read.val_main_v12 (F := Ideal) (m ((c : Thread nD τ).loc main_arg1))) := by
  refine (StableHlo.read_binary (hW (F := Ideal)) 21 (fun b => m (c, b)) (a := main_v10) (b := main_v11) (y := main_v12) rfl (by decide) (by decide) (by decide)).trans ?_
  rw [st_main_v10 m c, st_main_v11 m c]
  rfl

theorem st_main_v13 (c : Dev nD) : StableHlo.after (ops (F := Ideal)) (fun b => m (c, b)) (Proc.devRef .tc main_v13) = (Cert.ReferenceIdeal.Read.val_main_v13 (F := Ideal) (m ((c : Thread nD τ).loc main_arg1))) := by
  refine (StableHlo.read_unary (hW (F := Ideal)) 22 (fun b => m (c, b)) (x := main_v12) (y := main_v13) rfl (by decide) (by decide)).trans ?_
  rw [st_main_v12 m c]
  rfl

theorem st_main_v14 (c : Dev nD) : StableHlo.after (ops (F := Ideal)) (fun b => m (c, b)) (Proc.devRef .tc main_v14) = (Cert.ReferenceIdeal.Read.val_main_v14 (F := Ideal) (m ((c : Thread nD τ).loc main_arg1))) := by
  refine (StableHlo.read_binary (hW (F := Ideal)) 23 (fun b => m (c, b)) (a := main_v5) (b := main_v13) (y := main_v14) rfl (by decide) (by decide) (by decide)).trans ?_
  rw [st_main_v5 m c, st_main_v13 m c]
  rfl

theorem st_main_cst_4 (c : Dev nD) : StableHlo.after (ops (F := Ideal)) (fun b => m (c, b)) (Proc.devRef .tc main_cst_4) = (Cert.ReferenceIdeal.Read.val_main_cst_4 (F := Ideal)) := by
  refine (StableHlo.read_nullary (hW (F := Ideal)) 24 (fun b => m (c, b)) (y := main_cst_4) rfl (by decide)).trans ?_
  rfl

theorem st_main_v15 (c : Dev nD) : StableHlo.after (ops (F := Ideal)) (fun b => m (c, b)) (Proc.devRef .tc main_v15) = (Cert.ReferenceIdeal.Read.val_main_v15 (F := Ideal)) := by
  refine (StableHlo.read_unary (hW (F := Ideal)) 25 (fun b => m (c, b)) (x := main_cst_4) (y := main_v15) rfl (by decide) (by decide)).trans ?_
  rw [st_main_cst_4 m c]
  rfl

theorem st_main_v16 (c : Dev nD) : StableHlo.after (ops (F := Ideal)) (fun b => m (c, b)) (Proc.devRef .tc main_v16) = (Cert.ReferenceIdeal.Read.val_main_v16 (F := Ideal) (m ((c : Thread nD τ).loc main_arg1))) := by
  refine (StableHlo.read_binary (hW (F := Ideal)) 26 (fun b => m (c, b)) (a := main_v14) (b := main_v15) (y := main_v16) rfl (by decide) (by decide) (by decide)).trans ?_
  rw [st_main_v14 m c, st_main_v15 m c]
  rfl

theorem st_main_cst_5 (c : Dev nD) : StableHlo.after (ops (F := Ideal)) (fun b => m (c, b)) (Proc.devRef .tc main_cst_5) = (Cert.ReferenceIdeal.Read.val_main_cst_5 (F := Ideal)) := by
  refine (StableHlo.read_nullary (hW (F := Ideal)) 27 (fun b => m (c, b)) (y := main_cst_5) rfl (by decide)).trans ?_
  rfl

theorem st_main_v17 (c : Dev nD) : StableHlo.after (ops (F := Ideal)) (fun b => m (c, b)) (Proc.devRef .tc main_v17) = (Cert.ReferenceIdeal.Read.val_main_v17 (F := Ideal)) := by
  refine (StableHlo.read_unary (hW (F := Ideal)) 28 (fun b => m (c, b)) (x := main_cst_5) (y := main_v17) rfl (by decide) (by decide)).trans ?_
  rw [st_main_cst_5 m c]
  rfl

theorem st_main_v18 (c : Dev nD) : StableHlo.after (ops (F := Ideal)) (fun b => m (c, b)) (Proc.devRef .tc main_v18) = (Cert.ReferenceIdeal.Read.val_main_v18 (F := Ideal) (m ((c : Thread nD τ).loc main_arg1))) := by
  refine (StableHlo.read_binary (hW (F := Ideal)) 29 (fun b => m (c, b)) (a := main_v16) (b := main_v17) (y := main_v18) rfl (by decide) (by decide) (by decide)).trans ?_
  rw [st_main_v16 m c, st_main_v17 m c]
  rfl

theorem st_main_c (c : Dev nD) : StableHlo.after (ops (F := Ideal)) (fun b => m (c, b)) (Proc.devRef .tc main_c) = (Cert.ReferenceIdeal.Read.val_main_c (F := Ideal)) := by
  refine (StableHlo.read_nullary (hW (F := Ideal)) 30 (fun b => m (c, b)) (y := main_c) rfl (by decide)).trans ?_
  rfl

theorem st_main_c_6 (c : Dev nD) : StableHlo.after (ops (F := Ideal)) (fun b => m (c, b)) (Proc.devRef .tc main_c_6) = (Cert.ReferenceIdeal.Read.val_main_c_6 (F := Ideal)) := by
  refine (StableHlo.read_nullary (hW (F := Ideal)) 31 (fun b => m (c, b)) (y := main_c_6) rfl (by decide)).trans ?_
  rfl

theorem st_main_call1_v0 (c : Dev nD) : StableHlo.after (ops (F := Ideal)) (fun b => m (c, b)) (Proc.devRef .tc main_call1_v0) = (Cert.ReferenceIdeal.Read.val_main_call1_v0 (F := Ideal)) := by
  refine (StableHlo.read_unary (hW (F := Ideal)) 32 (fun b => m (c, b)) (x := main_c) (y := main_call1_v0) rfl (by decide) (by decide)).trans ?_
  rw [st_main_c m c]
  first | exact (StableHlo.cast_app₁ _ _ _ _).trans rfl | rfl

theorem st_main_call1_v1 (c : Dev nD) : StableHlo.after (ops (F := Ideal)) (fun b => m (c, b)) (Proc.devRef .tc main_call1_v1) = (Cert.ReferenceIdeal.Read.val_main_call1_v1 (F := Ideal)) := by
  refine (StableHlo.read_unary (hW (F := Ideal)) 33 (fun b => m (c, b)) (x := main_call1_v0) (y := main_call1_v1) rfl (by decide) (by decide)).trans ?_
  rw [st_main_call1_v0 m c]
  first | exact (StableHlo.cast_app₁ _ _ _ _).trans rfl | rfl

theorem st_main_call1_v2 (c : Dev nD) : StableHlo.after (ops (F := Ideal)) (fun b => m (c, b)) (Proc.devRef .tc main_call1_v2) = (Cert.ReferenceIdeal.Read.val_main_call1_v2 (F := Ideal) (m ((c : Thread nD τ).loc main_arg1))) := by
  refine (StableHlo.read_binary (hW (F := Ideal)) 34 (fun b => m (c, b)) (a := main_call1_v1) (b := main_v18) (y := main_call1_v2) rfl (by decide) (by decide) (by decide)).trans ?_
  rw [st_main_call1_v1 m c, st_main_v18 m c]
  first | exact (StableHlo.cast_app₂ _ _ _ _ _ _).trans rfl | rfl

theorem st_main_call1_v3 (c : Dev nD) : StableHlo.after (ops (F := Ideal)) (fun b => m (c, b)) (Proc.devRef .tc main_call1_v3) = (Cert.ReferenceIdeal.Read.val_main_call1_v3 (F := Ideal)) := by
  refine (StableHlo.read_unary (hW (F := Ideal)) 35 (fun b => m (c, b)) (x := main_c_6) (y := main_call1_v3) rfl (by decide) (by decide)).trans ?_
  rw [st_main_c_6 m c]
  first | exact (StableHlo.cast_app₁ _ _ _ _).trans rfl | rfl

theorem st_main_call1_v4 (c : Dev nD) : StableHlo.after (ops (F := Ideal)) (fun b => m (c, b)) (Proc.devRef .tc main_call1_v4) = (Cert.ReferenceIdeal.Read.val_main_call1_v4 (F := Ideal)) := by
  refine (StableHlo.read_unary (hW (F := Ideal)) 36 (fun b => m (c, b)) (x := main_call1_v3) (y := main_call1_v4) rfl (by decide) (by decide)).trans ?_
  rw [st_main_call1_v3 m c]
  first | exact (StableHlo.cast_app₁ _ _ _ _).trans rfl | rfl

theorem st_main_v19 (c : Dev nD) : StableHlo.after (ops (F := Ideal)) (fun b => m (c, b)) (Proc.devRef .tc main_v19) = (Cert.ReferenceIdeal.Read.val_main_v19 (F := Ideal) (m ((c : Thread nD τ).loc main_arg1))) := by
  refine (StableHlo.read_binary (hW (F := Ideal)) 37 (fun b => m (c, b)) (a := main_call1_v4) (b := main_call1_v2) (y := main_v19) rfl (by decide) (by decide) (by decide)).trans ?_
  rw [st_main_call1_v4 m c, st_main_call1_v2 m c]
  first | exact (StableHlo.cast_app₂ _ _ _ _ _ _).trans rfl | rfl

theorem st_main_v20 (c : Dev nD) : StableHlo.after (ops (F := Ideal)) (fun b => m (c, b)) (Proc.devRef .tc main_v20) = (Cert.ReferenceIdeal.Read.val_main_v20 (F := Ideal) (m ((c : Thread nD τ).loc main_arg1))) := by
  refine (StableHlo.read_unary (hW (F := Ideal)) 38 (fun b => m (c, b)) (x := main_v19) (y := main_v20) rfl (by decide) (by decide)).trans ?_
  rw [st_main_v19 m c]
  first | exact (StableHlo.cast_app₁ _ _ _ _).trans rfl | rfl

theorem st_main_v21 (c : Dev nD) : StableHlo.after (ops (F := Ideal)) (fun b => m (c, b)) (Proc.devRef .tc main_v21) = (Cert.ReferenceIdeal.Read.val_main_v21 (F := Ideal) (m ((c : Thread nD τ).loc main_arg1))) := by
  refine (StableHlo.read_unary (hW (F := Ideal)) 39 (fun b => m (c, b)) (x := main_v20) (y := main_v21) rfl (by decide) (by decide)).trans ?_
  rw [st_main_v20 m c]
  rfl

theorem st_main_v22 (c : Dev nD) : StableHlo.after (ops (F := Ideal)) (fun b => m (c, b)) (Proc.devRef .tc main_v22) = (Cert.ReferenceIdeal.Read.val_main_v22 (F := Ideal) (m ((c : Thread nD τ).loc main_arg1))) := by
  refine (StableHlo.read_unary (hW (F := Ideal)) 40 (fun b => m (c, b)) (x := main_v21) (y := main_v22) rfl (by decide) (by decide)).trans ?_
  rw [st_main_v21 m c]
  rfl

theorem st_main_v23 (c : Dev nD) : StableHlo.after (ops (F := Ideal)) (fun b => m (c, b)) (Proc.devRef .tc main_v23) = (Cert.ReferenceIdeal.Read.val_main_v23 (F := Ideal) (m ((c : Thread nD τ).loc main_arg1))) := by
  refine (StableHlo.read_reshape (hW (F := Ideal)) 41 (fun b => m (c, b)) (x := main_v22) (y := main_v23) rfl (by decide) (by decide)).trans ?_
  rw [st_main_v22 m c]
  rfl

theorem st_main_c_7 (c : Dev nD) : StableHlo.after (ops (F := Ideal)) (fun b => m (c, b)) (Proc.devRef .tc main_c_7) = (Cert.ReferenceIdeal.Read.val_main_c_7 (F := Ideal)) := by
  refine (StableHlo.read_nullary (hW (F := Ideal)) 42 (fun b => m (c, b)) (y := main_c_7) rfl (by decide)).trans ?_
  rfl

theorem st_main_v24 (c : Dev nD) : StableHlo.after (ops (F := Ideal)) (fun b => m (c, b)) (Proc.devRef .tc main_v24) = (Cert.ReferenceIdeal.Read.val_main_v24 (F := Ideal)) := by
  refine (StableHlo.read_unary (hW (F := Ideal)) 43 (fun b => m (c, b)) (x := main_c_7) (y := main_v24) rfl (by decide) (by decide)).trans ?_
  rw [st_main_c_7 m c]
  rfl

theorem st_main_v25 (c : Dev nD) : StableHlo.after (ops (F := Ideal)) (fun b => m (c, b)) (Proc.devRef .tc main_v25) = (Cert.ReferenceIdeal.Read.val_main_v25 (F := Ideal) (m ((c : Thread nD τ).loc main_arg1))) := by
  refine (StableHlo.read_binary (hW (F := Ideal)) 44 (fun b => m (c, b)) (a := main_v23) (b := main_v24) (y := main_v25) rfl (by decide) (by decide) (by decide)).trans ?_
  rw [st_main_v23 m c, st_main_v24 m c]
  rfl

theorem st_main_v26 (c : Dev nD) : StableHlo.after (ops (F := Ideal)) (fun b => m (c, b)) (Proc.devRef .tc main_v26) = (Cert.ReferenceIdeal.Read.val_main_v26 (F := Ideal) (m ((c : Thread nD τ).loc main_arg1))) := by
  refine (StableHlo.read_unary (hW (F := Ideal)) 45 (fun b => m (c, b)) (x := main_v21) (y := main_v26) rfl (by decide) (by decide)).trans ?_
  rw [st_main_v21 m c]
  rfl

theorem st_main_v27 (c : Dev nD) : StableHlo.after (ops (F := Ideal)) (fun b => m (c, b)) (Proc.devRef .tc main_v27) = (Cert.ReferenceIdeal.Read.val_main_v27 (F := Ideal) (m ((c : Thread nD τ).loc main_arg1))) := by
  refine (StableHlo.read_reshape (hW (F := Ideal)) 46 (fun b => m (c, b)) (x := main_v26) (y := main_v27) rfl (by decide) (by decide)).trans ?_
  rw [st_main_v26 m c]
  rfl

theorem st_main_c_8 (c : Dev nD) : StableHlo.after (ops (F := Ideal)) (fun b => m (c, b)) (Proc.devRef .tc main_c_8) = (Cert.ReferenceIdeal.Read.val_main_c_8 (F := Ideal)) := by
  refine (StableHlo.read_nullary (hW (F := Ideal)) 47 (fun b => m (c, b)) (y := main_c_8) rfl (by decide)).trans ?_
  rfl

theorem st_main_v28 (c : Dev nD) : StableHlo.after (ops (F := Ideal)) (fun b => m (c, b)) (Proc.devRef .tc main_v28) = (Cert.ReferenceIdeal.Read.val_main_v28 (F := Ideal)) := by
  refine (StableHlo.read_unary (hW (F := Ideal)) 48 (fun b => m (c, b)) (x := main_c_8) (y := main_v28) rfl (by decide) (by decide)).trans ?_
  rw [st_main_c_8 m c]
  rfl

theorem st_main_v29 (c : Dev nD) : StableHlo.after (ops (F := Ideal)) (fun b => m (c, b)) (Proc.devRef .tc main_v29) = (Cert.ReferenceIdeal.Read.val_main_v29 (F := Ideal) (m ((c : Thread nD τ).loc main_arg1))) := by
  refine (StableHlo.read_binary (hW (F := Ideal)) 49 (fun b => m (c, b)) (a := main_v27) (b := main_v28) (y := main_v29) rfl (by decide) (by decide) (by decide)).trans ?_
  rw [st_main_v27 m c, st_main_v28 m c]
  rfl

theorem st_main_v30 (c : Dev nD) : StableHlo.after (ops (F := Ideal)) (fun b => m (c, b)) (Proc.devRef .tc main_v30) = (Cert.ReferenceIdeal.Read.val_main_v30 (F := Ideal) (m ((c : Thread nD τ).loc main_arg1))) := by
  refine (StableHlo.read_binary (hW (F := Ideal)) 50 (fun b => m (c, b)) (a := main_v25) (b := main_v29) (y := main_v30) rfl (by decide) (by decide) (by decide)).trans ?_
  rw [st_main_v25 m c, st_main_v29 m c]
  rfl

theorem st_main_v31 (c : Dev nD) : StableHlo.after (ops (F := Ideal)) (fun b => m (c, b)) (Proc.devRef .tc main_v31) = (Cert.ReferenceIdeal.Read.val_main_v31 (F := Ideal) (m ((c : Thread nD τ).loc main_arg1))) := by
  refine (StableHlo.read_unary (hW (F := Ideal)) 51 (fun b => m (c, b)) (x := main_v21) (y := main_v31) rfl (by decide) (by decide)).trans ?_
  rw [st_main_v21 m c]
  rfl

theorem st_main_v32 (c : Dev nD) : StableHlo.after (ops (F := Ideal)) (fun b => m (c, b)) (Proc.devRef .tc main_v32) = (Cert.ReferenceIdeal.Read.val_main_v32 (F := Ideal) (m ((c : Thread nD τ).loc main_arg1))) := by
  refine (StableHlo.read_reshape (hW (F := Ideal)) 52 (fun b => m (c, b)) (x := main_v31) (y := main_v32) rfl (by decide) (by decide)).trans ?_
  rw [st_main_v31 m c]
  rfl

theorem st_main_v33 (c : Dev nD) : StableHlo.after (ops (F := Ideal)) (fun b => m (c, b)) (Proc.devRef .tc main_v33) = (Cert.ReferenceIdeal.Read.val_main_v33 (F := Ideal) (m ((c : Thread nD τ).loc main_arg1))) := by
  refine (StableHlo.read_binary (hW (F := Ideal)) 53 (fun b => m (c, b)) (a := main_v30) (b := main_v32) (y := main_v33) rfl (by decide) (by decide) (by decide)).trans ?_
  rw [st_main_v30 m c, st_main_v32 m c]
  rfl

theorem st_main_v34 (c : Dev nD) : StableHlo.after (ops (F := Ideal)) (fun b => m (c, b)) (Proc.devRef .tc main_v34) = (broadcastInDim S16x1x32768 ![0, 2] Gen.bcast_S16x32768_S16x1x32768_0_2 (Cert.ReferenceIdeal.Read.val_main_v33 (F := Ideal) (m ((c : Thread nD τ).loc main_arg1)))) := by
  refine (StableHlo.read_unary (hW (F := Ideal)) 54 (fun b => m (c, b)) (x := main_v33) (y := main_v34) rfl (by decide) (by decide)).trans ?_
  rw [st_main_v33 m c]

/-- The voxel numbers' array the kernel region reads: the reference's voxel numbers, one row per batch. -/
theorem V_v34 (c : Dev nD) : (V m c main_v34 : S16x1x32768.Idx → BitVec 32)
    = broadcastInDim S16x1x32768 ![0, 2] Gen.bcast_S16x32768_S16x1x32768_0_2 (Cert.ReferenceIdeal.Read.val_main_v33 (F := Ideal) (m ((c : Thread nD τ).loc main_arg1))) :=
  st_main_v34 m c

/-- The clipped coordinates as the region finds them: the reference's. -/
theorem V_v19 (c : Dev nD) : V m c main_v19 = Cert.ReferenceIdeal.Read.val_main_v19 (F := Ideal) (m ((c : Thread nD τ).loc main_arg1)) :=
  st_main_v19 m c

end Cert.Voxel.Host

end
-- ==== Proof.HostTail.lean ====
/-
  What the kernel program's buffers hold after its last host line.

  After the pipelined region the program runs one host line, the reshape of the region's output array (batch × channel
  × voxel) to batch × channel × 32 × 32 × 32. So the program's result is that reshape of what the region left in its
  output array, and a buffer that line does not write and the region does not stage is as the region found it.
-/
import proofs.«175713_j24764781429164_2_alg».proof.Proof.Gen.KernelIdeal.Frame
import Idealize.ShloMosaic.Lib.StableHlo.Run
import Idealize.ShloMosaic.Lib.Pipeline.Value
import Idealize.ShloMosaic.Lib.Tactic
import Idealize.ShloMosaic.PureOps.Ideal

set_option maxRecDepth 16384

noncomputable section

namespace Cert.Voxel.Tail

open Idealize.ShloMosaic Idealize.ShloMosaic.TcCoe Idealize.ShloMosaic.Tactic
open Idealize.SL Idealize.SL.Sem
open Idealize.ShloMosaic.Pipeline (Dat Cfg)
open Cert.KernelIdeal Cert.KernelIdeal.Gen

variable (m : (ℓ : Loc nD τ sig) → Buf (Elt Ideal) ℓ)

/-- The last host line does not write the clipped coordinates, and they are no array of the region: after the program
    they are what the host lines before the region computed. -/
theorem tail_v19 (c : Dev nD) :
    Pipeline.afterTail₀ cfgs (dats m) 0 (V0 m) [hostOps1] c main_v19 = V m c main_v19 := by
  unfold Pipeline.afterTail₀
  rw [StableHlo.after_of_forall_not_mem (b := Proc.devRef .tc main_v19) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_v19 (by exact (by decide : ∀ w, Pipeline.arrRef spec0 w ≠ main_v19))]

/-- The program's result is the reshape of the region's output array as the region leaves it. -/
theorem tail_v36 (c : Dev nD) :
    Pipeline.afterTail₀ cfgs (dats m) 0 (V0 m) [hostOps1] c main_v36
      = shapeCast S16x64x32x32x32 ((dats m 0 c).arrAt 2 cfg0.N) shapeCasts_S16x64x32768_S16x64x32x32x32 := by
  unfold Pipeline.afterTail₀
  show StableHlo.after hostOps1 _ (Proc.devRef .tc main_v36) = _
  after_results
  have h := Pipeline.withArrays_arr spec0 launch0.win.arr_inj c (V0 m c) (fun w => (dats m 0 c).arrAt w cfg0.N) 2
  exact congrArg (fun A : (⟨S16x64x32768, .f32⟩ : BufTy).Contents (Elt Ideal) =>
    shapeCast S16x64x32x32x32 A shapeCasts_S16x64x32768_S16x64x32x32x32) h

/-- The program's result buffer is no array of the region: the frame's post speaks of it among the other buffers. -/
theorem v36_mem_restRefs : main_v36 ∈ Pipeline.restRefs sig (cfgs 0).spec :=
  Pipeline.mem_restRefs_of main_v36 (by decide) (by decide)

/-- Nor is the buffer of the clipped coordinates. -/
theorem v19_mem_restRefs : main_v19 ∈ Pipeline.restRefs sig (cfgs 0).spec :=
  Pipeline.mem_restRefs_of main_v19 (by decide) (by decide)

end Cert.Voxel.Tail

end
-- ==== Proof.KernelValue.lean ====
/-
  The kernel's result array is the voxel average.

  A grid point is (batch b, voxel tile, point tile); its number t has b = t / 256, voxel tile t / 8 % 32, point tile
  t % 8. The eight points of a run share b and the voxel tile, and their point tiles are 0 … 7, so their input blocks
  are the eight consecutive tiles of batch b's points: features f(b, ·, 4096 s + k) and voxel numbers ix(b, 4096 s + k).
  After the run's last point the accumulator holds, in row d < 64 and column u, the eight tiles' contributions to
  voxel number v = 1024 · (voxel tile) + u, which together are the voxel sum of channel d, and in row 64 the voxel
  count; the block written back is their quotient (the count at least one): block (b, ·, voxel tile) of the voxel
  average. The written blocks tile the output array, so the array is the voxel average of the features and of the voxel
  numbers as the region finds them; the voxel numbers' array is the host's index computation of the coordinates, the
  same function the reference program applies.
-/
import proofs.«175713_j24764781429164_2_alg».proof.Proof.Accumulate
import proofs.«175713_j24764781429164_2_alg».proof.Proof.BlockReads
import proofs.«175713_j24764781429164_2_alg».proof.Proof.HostPrefix
import proofs.«175713_j24764781429164_2_alg».proof.Proof.HostTail

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.Voxel.Kernel

open Cert.KernelIdeal Cert.KernelIdeal.Gen Cert.Voxel

variable (m : (ℓ : Loc nD τ sig) → Buf (Elt Ideal) ℓ) (ρ : Dev nD → PrngReg) (c : Dev nD)

/-- The features the program was given. -/
abbrev feat : SFeat.Idx → EReal := m ((c : Thread nD τ).loc main_arg0)
/-- The voxel numbers: the host's index computation applied to the coordinates the program was given. -/
abbrev vox : SIdx.Idx → BitVec 32 := Cert.ReferenceIdeal.Read.val_main_v33 (F := Ideal) (m ((c : Thread nD τ).loc main_arg1))

/-- The voxel numbers' array as the region finds it, read at (b, 0, n). -/
theorem v34_apply (b : Fin 16) (n : Fin 32768) : V m c main_v34 (ix3 b 0 n) = vox m c (ix2 b n) := by
  rw [Host.V_v34 m c]
  exact broadcastInDim_apply _ Gen.bcast_S16x32768_S16x1x32768_0_2 _ (ix3 b 0 n) (ix2 b n) (fun a => match a with
    | ⟨0, _⟩ => by show b.val = if (16 : Nat) = 1 then 0 else b.val; rw [if_neg (by decide)]
    | ⟨1, _⟩ => by show n.val = if (32768 : Nat) = 1 then 0 else n.val; rw [if_neg (by decide)])

/-- Point `s` of the run that ends at `t`. -/
def runPoint (t : Fin cfg0.N) (h7 : t.val % 8 = 7) (s : Fin 8) : Fin cfg0.N := ⟨t.val - 7 + s.val, by have := t.isLt; have := s.isLt; omega⟩

/-- The batch of point `t`. -/
def batchOf (t : Fin cfg0.N) : Fin 16 := ⟨t.val / 256, by have hN : t.val < 4096 := lt_of_lt_of_eq t.isLt (show cfg0.N = 4096 from N_0); omega⟩

/-- Voxel number `u` of point `t`'s voxel tile. -/
def voxelOf (t : Fin cfg0.N) (u : Fin 1024) : Fin 32768 :=
  ⟨t.val / 8 % 32 * 1024 + u.val, by have := u.isLt; omega⟩

/-- The feature block of a run's point `s` is tile `s` of the batch's features. -/
theorem run_feat (t : Fin cfg0.N) (h7 : t.val % 8 = 7) (s : Fin 8) (d : Fin 64) (k : Fin 4096) :
    (iblk m c 0 (runPoint t h7 s) : Vec Ideal S1x64x4096 .f32) (ix3 0 d k) = feat m c (ix3 (batchOf t) d (pointOf s k)) := by
  rw [Blk.iblk0_apply m c (runPoint t h7 s) d k, V_main_arg0 m c]
  have hN : t.val < 4096 := lt_of_lt_of_eq t.isLt (show cfg0.N = 4096 from N_0)
  have hs := s.isLt
  refine congrArg (m ((c : Thread nD τ).loc main_arg0)) (funext fun a => Fin.ext ?_)
  match a with
  | ⟨0, _⟩ => show (t.val - 7 + s.val) / 256 = t.val / 256; omega
  | ⟨1, _⟩ => rfl
  | ⟨2, _⟩ => show (t.val - 7 + s.val) % 8 * 4096 + k.val = s.val * 4096 + k.val; omega

/-- The voxel-number block of a run's point `s` is tile `s` of the batch's voxel numbers. -/
theorem run_vox (t : Fin cfg0.N) (h7 : t.val % 8 = 7) (s : Fin 8) (k : Fin 4096) :
    (iblk m c 1 (runPoint t h7 s) : Vec Ideal S1x1x4096 .i32) (ix3 0 0 k) = vox m c (ix2 (batchOf t) (pointOf s k)) := by
  rw [Blk.iblk1_apply m c (runPoint t h7 s) k, ← v34_apply m c (batchOf t) (pointOf s k)]
  have hN : t.val < 4096 := lt_of_lt_of_eq t.isLt (show cfg0.N = 4096 from N_0)
  have hs := s.isLt
  refine congrArg (V m c main_v34) (funext fun a => Fin.ext ?_)
  match a with
  | ⟨0, _⟩ => show (t.val - 7 + s.val) / 256 = t.val / 256; omega
  | ⟨1, _⟩ => rfl
  | ⟨2, _⟩ => show (t.val - 7 + s.val) % 8 * 4096 + k.val = s.val * 4096 + k.val; omega

/-- After a run's last point, row `r`, column `u` of the accumulator is the eight tiles' contributions to the
    column's voxel number. -/
theorem run_total (t : Fin cfg0.N) (h7 : t.val % 8 = 7) (r : Fin 65) (u : Fin 1024) :
    (outsAt0 m c t.val t.isLt).2 (ix2 r u)
      = ∑ s : Fin 8, tileSum (iblk m c 0 (runPoint t h7 s) : Vec Ideal S1x64x4096 .f32) (iblk m c 1 (runPoint t h7 s) : Vec Ideal S1x1x4096 .i32) (voxelOf t u).val r := by
  rw [Acc.scratch_eq m c r u t.val t.isLt, h7, Finset.sum_range]
  refine Finset.sum_congr rfl fun s _ => ?_
  have hlt : t.val - 7 + s.val < cfg0.N := by have := t.isLt; have := s.isLt; omega
  rw [Acc.contribAt_of_lt m c r u (t.val - 7 + s.val) hlt]
  unfold Acc.contrib
  have hw : (grid0.coords (⟨t.val - 7 + s.val, hlt⟩ : Fin cfg0.N) 1).val * 1024 + u.val = (voxelOf t u).val := by
    rw [(Blk.idx_facts (⟨t.val - 7 + s.val, hlt⟩ : Fin cfg0.N)).2.2.2.2.2.2.2.2.2]
    show (t.val - 7 + s.val) / 8 % 32 * 1024 + u.val = t.val / 8 % 32 * 1024 + u.val
    have := s.isLt; omega
  rw [hw]
  rfl

set_option maxRecDepth 100000 in
/-- WHAT A RUN'S LAST POINT WRITES BACK is its block of the voxel average. -/
theorem flushed_eq (t : Fin cfg0.N) (hf : (cfg0.win 2).flush t = true) :
    (dats m 0 c).flushed 2 t = ((cfg0.win 2).blk t).view.read (Elt Ideal) (avg (feat m c) (vox m c)) := by
  have h7 : t.val % 8 = 7 := (flush0_2 t).mp hf
  show (cfg0.win 2).cut (grid0.coords t) ((dats m 0 c).after 2 t) = _
  rw [after0_2, Acc.out_last m c t h7]
  funext j
  obtain ⟨z, d, u, rfl⟩ : ∃ (z : Fin 1) (d : Fin 64) (u : Fin 1024), j = ix3 z d u := ⟨j 0, j 1, j 2, eq_ix3 j⟩
  obtain rfl : z = 0 := Subsingleton.elim _ _
  rw [View.read_apply, Blk.blk2_emb t d u]
  have hcut : ∀ X : Vec Ideal S1x64x1024 .f32, (cfg0.win 2).cut (grid0.coords t) X (ix3 0 d u) = X (ix3 0 d u) := fun X =>
    congrArg X (funext fun a => Fin.ext (by match a with | ⟨0, _⟩ => rfl | ⟨1, _⟩ => rfl | ⟨2, _⟩ => rfl))
  have hidx : (ix3 ⟨t.val / 256, by have hN : t.val < 4096 := lt_of_lt_of_eq t.isLt (show cfg0.N = 4096 from N_0); omega⟩ d
      ⟨t.val / 8 % 32 * 1024 + u.val, by have := u.isLt; omega⟩ : S16x64x32768.Idx) = ix3 (batchOf t) d (voxelOf t u) := rfl
  refine (hcut _).trans ?_
  rw [hidx, Pay.pay3_apply, avg_apply, run_total m c t h7 ⟨d.val, by have := d.isLt; omega⟩ u, run_total m c t h7 ⟨64, by omega⟩ u,
    tiles_voxelSum (feat m c) (vox m c) (batchOf t) (fun s => (iblk m c 0 (runPoint t h7 s) : Vec Ideal S1x64x4096 .f32))
      (fun s => (iblk m c 1 (runPoint t h7 s) : Vec Ideal S1x1x4096 .i32)) (fun s d k => run_feat m c t h7 s d k) (fun s k => run_vox m c t h7 s k) d (voxelOf t u),
    tiles_voxelCount (vox m c) (batchOf t) (fun s => (iblk m c 0 (runPoint t h7 s) : Vec Ideal S1x64x4096 .f32))
      (fun s => (iblk m c 1 (runPoint t h7 s) : Vec Ideal S1x1x4096 .i32)) (fun s k => run_vox m c t h7 s k) (voxelOf t u)]
  exact (cast_eq _ _).symm

/-- THE OUTPUT ARRAY after the run is the voxel average: the written blocks tile it. -/
theorem final (c : Dev nD) : (dats m 0 c).arrAt 2 cfg0.N = avg (feat m c) (vox m c) :=
  (dats m 0 c).arrAt_eq_of_cover 2 (avg (feat m c) (vox m c)) (fun t hf => flushed_eq m c t hf) (fun i => Blk.cover i)

/-- The frame run, read: the reshaped voxel average, the clipped coordinates, the arguments unchanged. -/
theorem run : θ_run defs (onTc (τ := τ) (main (F := Ideal))) ⟨m, fun _ => 0, ρ⟩ fun r => ∀ c : Dev nD,
      r.2.mem ((c : Thread nD τ).loc main_v36) = shapeCast S16x64x32x32x32 (avg (feat m c) (vox m c)) Gen.shapeCasts_S16x64x32768_S16x64x32x32x32
      ∧ r.2.mem ((c : Thread nD τ).loc main_v19) = Cert.ReferenceIdeal.Read.val_main_v19 (F := Ideal) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨(((h c).2 main_v36 Tail.v36_mem_restRefs).trans (Tail.tail_v36 m c)).trans (by rw [final m c]),
     (((h c).2 main_v19 Tail.v19_mem_restRefs).trans (Tail.tail_v19 m c)).trans (Host.V_v19 m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.Voxel.Kernel

end
-- ==== Proof.LibTakeColumn.lean ====
/-
  GATHER AND SCATTER-ADD WITH A TRAILING UNIT AXIS. A table of `N` rows can be held flat, shape `[N]`, or as a
  column, shape `[N, 1]`; likewise `E` gathered or scattered values, `[E]` or `[E, 1]`. The start indices are in
  both cases an integer array of shape `[E, 1]`: one scalar row number per position, the index vector along axis 1.

  This file gives the dimension numbers of the four operations (flat / column gather, flat / column scatter), general
  in the extents `N` and `E`, and proves:

  * `gather_flat_apply`, `gather_col_apply`: the gather read at position `e` is the table at row
    `min (idx[e, 0] read signed, negative ↦ 0) (N − 1)`, i.e. the start index clamped into `[0, N − 1]`;
  * `gather_col_eq_flat`: the column gather of a column table and the flat gather of a flat table with the same
    entries agree position by position;
  * `resultIdx_flat`, `resultIdx_col`: update `e` of the scatter lands on row `n` exactly when `idx[e, 0]`, read
    signed and NOT clamped, equals `n` (an index outside `[0, N)` lands nowhere);
  * `scatterAdd_col_eq_flat` (and `host_scatterAdd_col_eq_flat`): over the extended reals, the column scatter-add
    of column updates into a column table and the flat scatter-add of the same updates into the same table agree
    row by row: both are `z n + ∑ { e | idx[e, 0] = n } u e`.
-/
import Idealize.ShloMosaic.Lib.ValueIdx

noncomputable section

open scoped BigOperators
open Idealize.ShloMosaic Idealize.ShloMosaic.ValueIdx

namespace Cert.Lib.TakeColumn

/-! ## The dimension numbers -/

/-- Gather of a flat table `[N]` at start indices `[E, 1]`, result `[E]`: the one operand axis is collapsed and is
    the target of the start index's one component; no offset axes. -/
abbrev flatGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather of a column table `[N, 1]` at start indices `[E, 1]`, result `[E, 1]`: operand axis 0 is collapsed and is
    the target of the start index's one component; operand axis 1 (size 1, slice size 1) is the result's offset
    axis 1. -/
abbrev colGather (N E : Nat) (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- Scatter into a flat table `[N]` at scatter indices `[E, 1]` of updates `[E]`: the one operand axis is an inserted
    window axis and is the target of the scatter index's one component; no window axes. -/
abbrev flatScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Scatter into a column table `[N, 1]` at scatter indices `[E, 1]` of updates `[E, 1]`: operand axis 0 is an
    inserted window axis and is the target of the scatter index's one component; the updates' axis 1 is a window
    axis going to operand axis 1. -/
abbrev colScatter (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-! ## The gathers read at a position -/

section Gather
variable {α : Type}

/-- THE FLAT GATHER READ AT `e`: the table at the start index `idx[e, 0]`, read signed and clamped into
    `[0, N − 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGather N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (flatGather N E wf).start (ix1 e) idx 0 + (flatGather N E wf).batchCoord (ix1 e) 0
    + (flatGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE COLUMN GATHER READ AT `(e, 0)`: the table at `(r, 0)`, `r` the start index `idx[e, 0]` read signed and
    clamped into `[0, N − 1]`. On operand axis 1 the start is `0` (the start index map does not name it) and the
    offset coordinate is below the slice size `1`. -/
theorem gather_col_apply {N E w : Nat} (hN : 0 < N)
    (wf : GatherDims.WF ⟨2, ![N, 1]⟩ ⟨2, ![E, 1]⟩ ⟨2, ![E, 1]⟩ [1] [0] [] [0] [] 1 ![1, 1])
    (x : (⟨2, ![N, 1]⟩ : Shape).Idx → α) (idx : IVec ⟨2, ![E, 1]⟩ w) (e : Fin E) :
    Host.gather (colGather N E wf) x idx (ix2 e 0)
      = x (ix2 ⟨min (idx (ix2 e 0)).toInt.toNat (N - 1), by omega⟩ 0) := by
  unfold Host.gather
  congr 1
  funext a
  refine Fin.ext ?_
  show (colGather N E wf).start (ix2 e 0) idx a + (colGather N E wf).batchCoord (ix2 e 0) a
    + (colGather N E wf).offCoord (ix2 e 0) a = _
  rw [GatherDims.batchCoord_eq_zero _ _ _ List.not_mem_nil]
  simp only [Nat.add_zero]
  match a with
  | ⟨0, _⟩ =>
    show (colGather N E wf).start (ix2 e 0) idx 0 + (colGather N E wf).offCoord (ix2 e 0) 0
      = min (idx (ix2 e 0)).toInt.toNat (N - 1)
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (colGather N E wf).startIndexMap from List.mem_singleton.mpr rfl)]
    have hsi : (colGather N E wf).siIdx (ix2 e 0) ⟨List.idxOf (0 : Fin 2) (colGather N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    have hs : (colGather N E wf).start (ix2 e 0) idx 1 = 0 := by
      unfold GatherDims.start
      rw [dif_neg (fun h => absurd (congrArg Fin.val (List.mem_singleton.mp h)) Nat.one_ne_zero)]
    have ho : (colGather N E wf).offCoord (ix2 e 0) 1 = 0 := by
      by_cases h : (1 : Fin 2) ∈ (colGather N E wf).sKept
      · have hlt := GatherDims.offCoord_lt (colGather N E wf) (ix2 e 0) 1 h
        have h1 : (colGather N E wf).sliceSizes 1 = 1 := rfl
        omega
      · exact GatherDims.offCoord_eq_zero _ _ _ h
    show (colGather N E wf).start (ix2 e 0) idx 1 + (colGather N E wf).offCoord (ix2 e 0) 1 = 0
    rw [hs, ho]

/-- THE COLUMN GATHER IS THE FLAT ONE: of tables with the same entries, at the same start indices, position by
    position. -/
theorem gather_col_eq_flat {N E w : Nat} (hN : 0 < N)
    (wfc : GatherDims.WF ⟨2, ![N, 1]⟩ ⟨2, ![E, 1]⟩ ⟨2, ![E, 1]⟩ [1] [0] [] [0] [] 1 ![1, 1])
    (wff : GatherDims.WF ⟨1, ![N]⟩ ⟨2, ![E, 1]⟩ ⟨1, ![E]⟩ [] [0] [] [0] [] 1 ![1])
    (x' : (⟨2, ![N, 1]⟩ : Shape).Idx → α) (x : (⟨1, ![N]⟩ : Shape).Idx → α)
    (hx : ∀ n : Fin N, x' (ix2 n 0) = x (ix1 n)) (idx : IVec ⟨2, ![E, 1]⟩ w) (e : Fin E) :
    Host.gather (colGather N E wfc) x' idx (ix2 e 0) = Host.gather (flatGather N E wff) x idx (ix1 e) := by
  rw [gather_col_apply hN wfc x' idx e, gather_flat_apply hN wff x idx e, hx]

end Gather

/-! ## Where a scatter's update lands -/

section Scatter

/-- The flat scatter's start on its one operand axis for update `e`: the scatter index `idx[e, 0]`, read signed. -/
theorem flatScatter_start {N E w : Nat} (wf : ScatterDims.WF ⟨1, ![N]⟩ ⟨2, ![E, 1]⟩ ⟨1, ![E]⟩ [] [0] [0] 1)
    (idx : IVec ⟨2, ![E, 1]⟩ w) (e : Fin E) (a : Fin 1) :
    (flatScatter N E wf).start (ix1 e) idx a = (idx (ix2 e 0)).toInt := by
  obtain rfl : a = 0 := Subsingleton.elim _ _
  unfold ScatterDims.start
  rw [dif_pos (show (0 : Fin 1) ∈ (flatScatter N E wf).scatterDimsToOperandDims from List.mem_singleton.mpr rfl)]
  have hsi : (flatScatter N E wf).siIdx (ix1 e) ⟨List.idxOf (0 : Fin 1) (flatScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The flat scatter has no window: its one operand axis is an inserted one. -/
theorem flatScatter_window {N E : Nat} (wf : ScatterDims.WF ⟨1, ![N]⟩ ⟨2, ![E, 1]⟩ ⟨1, ![E]⟩ [] [0] [0] 1)
    (e : Fin E) (a : Fin 1) : (flatScatter N E wf).window (ix1 e) a = 0 := by
  obtain rfl : a = 0 := Subsingleton.elim _ _
  unfold ScatterDims.window
  rw [dif_neg (by simp [ScatterDims.sKept, Shape.kept])]

/-- The column scatter's start on operand axis 0 for update `(e, 0)`: the scatter index `idx[e, 0]`, read signed. -/
theorem colScatter_start_zero {N E w : Nat} (wf : ScatterDims.WF ⟨2, ![N, 1]⟩ ⟨2, ![E, 1]⟩ ⟨2, ![E, 1]⟩ [1] [0] [0] 1)
    (idx : IVec ⟨2, ![E, 1]⟩ w) (e : Fin E) :
    (colScatter N E wf).start (ix2 e 0) idx 0 = (idx (ix2 e 0)).toInt := by
  unfold ScatterDims.start
  rw [dif_pos (show (0 : Fin 2) ∈ (colScatter N E wf).scatterDimsToOperandDims from List.mem_singleton.mpr rfl)]
  have hsi : (colScatter N E wf).siIdx (ix2 e 0) ⟨List.idxOf (0 : Fin 2) (colScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The column scatter's start on operand axis 1 is `0`: the scatter index has no component for it. -/
theorem colScatter_start_one {N E w : Nat} (wf : ScatterDims.WF ⟨2, ![N, 1]⟩ ⟨2, ![E, 1]⟩ ⟨2, ![E, 1]⟩ [1] [0] [0] 1)
    (idx : IVec ⟨2, ![E, 1]⟩ w) (e : Fin E) :
    (colScatter N E wf).start (ix2 e 0) idx 1 = 0 := by
  unfold ScatterDims.start
  rw [dif_neg (fun h => absurd (congrArg Fin.val (List.mem_singleton.mp h)) Nat.one_ne_zero)]

/-- The column scatter's window coordinate on operand axis 0 is `0`: that axis is an inserted one. -/
theorem colScatter_window_zero {N E : Nat} (wf : ScatterDims.WF ⟨2, ![N, 1]⟩ ⟨2, ![E, 1]⟩ ⟨2, ![E, 1]⟩ [1] [0] [0] 1)
    (e : Fin E) : (colScatter N E wf).window (ix2 e 0) 0 = 0 := by
  unfold ScatterDims.window
  rw [dif_neg (by simp [ScatterDims.sKept, Shape.kept])]

/-- The column scatter's window coordinate on operand axis 1 is the update's coordinate on its axis 1, which is
    `0` (that axis has size 1). -/
theorem colScatter_window_one {N E : Nat} (wf : ScatterDims.WF ⟨2, ![N, 1]⟩ ⟨2, ![E, 1]⟩ ⟨2, ![E, 1]⟩ [1] [0] [0] 1)
    (e : Fin E) : (colScatter N E wf).window (ix2 e 0) 1 = 0 := by
  unfold ScatterDims.window
  split
  · rfl
  · rfl

/-- WHERE THE FLAT SCATTER'S UPDATE `e` LANDS: on row `n` exactly when the scatter index `idx[e, 0]`, read signed,
    is `n`. -/
theorem resultIdx_flat {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (flatScatter N E wf).resultIdx? (ix1 e) idx = some (ix1 n) ↔ (idx (ix2 e 0)).toInt = (n.val : Int) := by
  have hs := flatScatter_start wf idx e 0
  have hw := flatScatter_window wf e 0
  have hn := n.isLt
  unfold ScatterDims.resultIdx?
  split
  · next h =>
    have h0 : 0 ≤ (flatScatter N E wf).start (ix1 e) idx 0 + ((flatScatter N E wf).window (ix1 e) 0 : Nat)
        ∧ (flatScatter N E wf).start (ix1 e) idx 0 + ((flatScatter N E wf).window (ix1 e) 0 : Nat) < (N : Int) := h 0
    rw [hs, hw] at h0
    constructor
    · intro hf
      have h1 : ((flatScatter N E wf).start (ix1 e) idx 0 + ((flatScatter N E wf).window (ix1 e) 0 : Nat)).toNat = n.val :=
        congrArg (fun f => (f 0).val) (Option.some.inj hf)
      rw [hs, hw] at h1
      omega
    · intro hv
      congr 1
      funext a
      obtain rfl : a = 0 := Subsingleton.elim _ _
      refine Fin.ext ?_
      show ((flatScatter N E wf).start (ix1 e) idx 0 + ((flatScatter N E wf).window (ix1 e) 0 : Nat)).toNat = n.val
      rw [hs, hw, hv]
      omega
  · next h =>
    constructor
    · intro hf
      exact absurd hf (by simp)
    · intro hv
      refine absurd (fun a => ?_) h
      obtain rfl : a = 0 := Subsingleton.elim _ _
      show 0 ≤ (flatScatter N E wf).start (ix1 e) idx 0 + ((flatScatter N E wf).window (ix1 e) 0 : Nat)
        ∧ (flatScatter N E wf).start (ix1 e) idx 0 + ((flatScatter N E wf).window (ix1 e) 0 : Nat) < (N : Int)
      rw [hs, hw, hv]
      omega

/-- WHERE THE COLUMN SCATTER'S UPDATE `(e, 0)` LANDS: on `(n, 0)` exactly when the scatter index `idx[e, 0]`, read
    signed, is `n`. On axis 1 start and window coordinate are both `0`, inside the size-1 axis. -/
theorem resultIdx_col {N E w : Nat} (wf : ScatterDims.WF ⟨2, ![N, 1]⟩ ⟨2, ![E, 1]⟩ ⟨2, ![E, 1]⟩ [1] [0] [0] 1)
    (idx : IVec ⟨2, ![E, 1]⟩ w) (e : Fin E) (n : Fin N) :
    (colScatter N E wf).resultIdx? (ix2 e 0) idx = some (ix2 n 0) ↔ (idx (ix2 e 0)).toInt = (n.val : Int) := by
  have hs0 := colScatter_start_zero wf idx e
  have hs1 := colScatter_start_one wf idx e
  have hw0 := colScatter_window_zero wf e
  have hw1 := colScatter_window_one wf e
  have hn := n.isLt
  unfold ScatterDims.resultIdx?
  split
  · next h =>
    have h0 : 0 ≤ (colScatter N E wf).start (ix2 e 0) idx 0 + ((colScatter N E wf).window (ix2 e 0) 0 : Nat)
        ∧ (colScatter N E wf).start (ix2 e 0) idx 0 + ((colScatter N E wf).window (ix2 e 0) 0 : Nat) < (N : Int) := h 0
    rw [hs0, hw0] at h0
    constructor
    · intro hf
      have h1 : ((colScatter N E wf).start (ix2 e 0) idx 0 + ((colScatter N E wf).window (ix2 e 0) 0 : Nat)).toNat = n.val :=
        congrArg (fun f => (f 0).val) (Option.some.inj hf)
      rw [hs0, hw0] at h1
      omega
    · intro hv
      congr 1
      funext a
      refine Fin.ext ?_
      match a with
      | ⟨0, _⟩ =>
        show ((colScatter N E wf).start (ix2 e 0) idx 0 + ((colScatter N E wf).window (ix2 e 0) 0 : Nat)).toNat = n.val
        rw [hs0, hw0, hv]
        omega
      | ⟨1, _⟩ =>
        show ((colScatter N E wf).start (ix2 e 0) idx 1 + ((colScatter N E wf).window (ix2 e 0) 1 : Nat)).toNat = 0
        rw [hs1, hw1]
        rfl
  · next h =>
    constructor
    · intro hf
      exact absurd hf (by simp)
    · intro hv
      refine absurd (fun a => ?_) h
      match a with
      | ⟨0, _⟩ =>
        show 0 ≤ (colScatter N E wf).start (ix2 e 0) idx 0 + ((colScatter N E wf).window (ix2 e 0) 0 : Nat)
          ∧ (colScatter N E wf).start (ix2 e 0) idx 0 + ((colScatter N E wf).window (ix2 e 0) 0 : Nat) < (N : Int)
        rw [hs0, hw0, hv]
        omega
      | ⟨1, _⟩ =>
        show 0 ≤ (colScatter N E wf).start (ix2 e 0) idx 1 + ((colScatter N E wf).window (ix2 e 0) 1 : Nat)
          ∧ (colScatter N E wf).start (ix2 e 0) idx 1 + ((colScatter N E wf).window (ix2 e 0) 1 : Nat) < ((1 : Nat) : Int)
        rw [hs1, hw1]
        omega

/-! ## The scatter-adds agree -/

/-- THE COLUMN SCATTER-ADD IS THE FLAT ONE, over the extended reals: of tables with the same entries and updates with
    the same entries, at the same scatter indices, row by row. Both sides are the table's entry plus the sum of the
    updates whose scatter index is that row; the sums correspond along `e ↦ (e, 0)`. -/
theorem scatterAdd_col_eq_flat {N E w : Nat}
    (wfc : ScatterDims.WF ⟨2, ![N, 1]⟩ ⟨2, ![E, 1]⟩ ⟨2, ![E, 1]⟩ [1] [0] [0] 1)
    (wff : ScatterDims.WF ⟨1, ![N]⟩ ⟨2, ![E, 1]⟩ ⟨1, ![E]⟩ [] [0] [0] 1)
    (z' : (⟨2, ![N, 1]⟩ : Shape).Idx → EReal) (z : (⟨1, ![N]⟩ : Shape).Idx → EReal)
    (u' : (⟨2, ![E, 1]⟩ : Shape).Idx → EReal) (u : (⟨1, ![E]⟩ : Shape).Idx → EReal)
    (idx : IVec ⟨2, ![E, 1]⟩ w)
    (hz : ∀ n : Fin N, z' (ix2 n 0) = z (ix1 n)) (hu : ∀ e : Fin E, u' (ix2 e 0) = u (ix1 e)) (n : Fin N) :
    Ideal.hostScatterAdd (colScatter N E wfc) z' idx u' (ix2 n 0)
      = Ideal.hostScatterAdd (flatScatter N E wff) z idx u (ix1 n) := by
  unfold Ideal.hostScatterAdd
  rw [hz]
  congr 1
  symm
  refine Finset.sum_bij (fun (j : (⟨1, ![E]⟩ : Shape).Idx) _ => (ix2 (j 0) 0 : (⟨2, ![E, 1]⟩ : Shape).Idx)) ?_ ?_ ?_ ?_
  · intro j hj
    rw [Finset.mem_filter] at hj ⊢
    refine ⟨Finset.mem_univ _, ?_⟩
    have hj2 := hj.2
    rw [eq_ix1 j] at hj2
    exact (resultIdx_col wfc idx (j 0) n).mpr ((resultIdx_flat wff idx (j 0) n).mp hj2)
  · intro j₁ _ j₂ _ h
    have h0 : (j₁ 0) = (j₂ 0) := congrFun h 0
    rw [eq_ix1 j₁, eq_ix1 j₂]
    exact congrArg ix1 h0
  · intro j' hj'
    rw [Finset.mem_filter] at hj'
    have hj'eq : j' = ix2 (j' 0) 0 := by
      funext a
      match a with
      | ⟨0, _⟩ => rfl
      | ⟨1, _⟩ => exact Subsingleton.elim (α := Fin 1) _ _
    refine ⟨ix1 (j' 0), ?_, hj'eq.symm⟩
    rw [Finset.mem_filter]
    refine ⟨Finset.mem_univ _, ?_⟩
    have hj2 := hj'.2
    rw [hj'eq] at hj2
    exact (resultIdx_flat wff idx (j' 0) n).mpr ((resultIdx_col wfc idx (j' 0) n).mp hj2)
  · intro j _
    rw [hu (j 0)]
    exact congrArg u (eq_ix1 j)

/-- The same for the host scatter-add of a program at the ideal instance, which is that exact sum. -/
theorem host_scatterAdd_col_eq_flat {N E w : Nat}
    (wfc : ScatterDims.WF ⟨2, ![N, 1]⟩ ⟨2, ![E, 1]⟩ ⟨2, ![E, 1]⟩ [1] [0] [0] 1)
    (wff : ScatterDims.WF ⟨1, ![N]⟩ ⟨2, ![E, 1]⟩ ⟨1, ![E]⟩ [] [0] [0] 1)
    (z' : FVec Ideal ⟨2, ![N, 1]⟩ .f32) (z : FVec Ideal ⟨1, ![N]⟩ .f32)
    (u' : FVec Ideal ⟨2, ![E, 1]⟩ .f32) (u : FVec Ideal ⟨1, ![E]⟩ .f32)
    (idx : IVec ⟨2, ![E, 1]⟩ w)
    (hz : ∀ n : Fin N, z' (ix2 n 0) = z (ix1 n)) (hu : ∀ e : Fin E, u' (ix2 e 0) = u (ix1 e)) (n : Fin N) :
    Host.scatterAdd (F := Ideal) (colScatter N E wfc) z' idx u' (ix2 n 0)
      = Host.scatterAdd (F := Ideal) (flatScatter N E wff) z idx u (ix1 n) :=
  scatterAdd_col_eq_flat wfc wff z' z u' u idx hz hu n

end Scatter

end Cert.Lib.TakeColumn

end
-- ==== Proof.LibRowScatter.lean ====
/-
  SCATTER-ADD OF ROWS THROUGH AN INDEX COLUMN. A table of `N` rows of `D` entries, shape `[N, D]`; scatter indices of
  shape `[E, 1]`, one row number per update row, the index vector along axis 1; updates of shape `[E, D]`. Update row
  `e` is aimed, entry by entry, at the table row its scatter index names: the updates' axis 1 is the window axis and
  goes to the table's axis 1, the table's axis 0 is the inserted axis the scatter index addresses.

  This file gives the dimension numbers of that scatter, general in the extents `N`, `E` and `D`, and proves
  `resultIdx_row`: the update at `(e, d')` lands on the table entry `(n, d)` exactly when the scatter index `idx[e, 0]`,
  read as a signed integer and NOT clamped, equals `n`, and `d' = d` (an index outside `[0, N)` lands nowhere). On the
  table's axis 0 the start is the scatter index and the window coordinate is `0`; on axis 1 the start is `0` and the
  window coordinate is `d'`, always inside the axis.
-/
import Idealize.ShloMosaic.Lib.ValueIdx

noncomputable section

open scoped BigOperators
open Idealize.ShloMosaic Idealize.ShloMosaic.ValueIdx

namespace Cert.Lib.RowScatter

/-! ## Where an update of the row scatter lands

A table of `N` rows of `D` entries, scatter indices `[E, 1]` (one row number per update row), updates `[E, D]`: update
row `e` is added, entry by entry, to the table row its scatter index names. -/

/-- Scatter into a table `[N, D]` at scatter indices `[E, 1]` of updates `[E, D]`: operand axis 0 is an inserted
    window axis and the target of the scatter index's one component; the updates' axis 1 is a window axis going to
    operand axis 1. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The row scatter's start on operand axis 0 for update `(e, d')`: the scatter index `idx[e, 0]`, read signed. -/
theorem rowScatter_start_zero {N E D w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) :
    (rowScatter N E D wf).start (ix2 e d') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e d') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The row scatter's start on operand axis 1 is `0`: the scatter index has no component for it. -/
theorem rowScatter_start_one {N E D w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) :
    (rowScatter N E D wf).start (ix2 e d') idx 1 = 0 := by
  unfold ScatterDims.start
  rw [dif_neg (fun h => absurd (congrArg Fin.val (List.mem_singleton.mp h)) Nat.one_ne_zero)]

/-- The row scatter's window coordinate on operand axis 0 is `0`: that axis is an inserted one. -/
theorem rowScatter_window_zero {N E D : Nat} (wf : ScatterDims.WF ⟨2, ![N, D]⟩ ⟨2, ![E, 1]⟩ ⟨2, ![E, D]⟩ [1] [0] [0] 1)
    (e : Fin E) (d' : Fin D) : (rowScatter N E D wf).window (ix2 e d') 0 = 0 := by
  unfold ScatterDims.window
  rw [dif_neg (by simp [ScatterDims.sKept, Shape.kept])]

/-- The row scatter's window coordinate on operand axis 1 is the update's coordinate on its axis 1. -/
theorem rowScatter_window_one {N E D : Nat} (wf : ScatterDims.WF ⟨2, ![N, D]⟩ ⟨2, ![E, 1]⟩ ⟨2, ![E, D]⟩ [1] [0] [0] 1)
    (e : Fin E) (d' : Fin D) : (rowScatter N E D wf).window (ix2 e d') 1 = d'.val := by
  unfold ScatterDims.window
  split
  · rfl
  · next h => exact absurd (by simp [ScatterDims.sKept, Shape.kept]) h

/-- WHERE THE ROW SCATTER'S UPDATE `(e, d')` LANDS: on `(n, d)` exactly when the scatter index `idx[e, 0]`, read
    signed, is `n` and `d' = d`. On axis 1 the start is `0` and the window coordinate `d'` is inside the axis. -/
theorem resultIdx_row {N E D w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) (n : Fin N) (d : Fin D) :
    (rowScatter N E D wf).resultIdx? (ix2 e d') idx = some (ix2 n d)
      ↔ ((idx (ix2 e 0)).toInt = (n.val : Int) ∧ d' = d) := by
  have hs0 := rowScatter_start_zero wf idx e d'
  have hs1 := rowScatter_start_one wf idx e d'
  have hw0 := rowScatter_window_zero wf e d'
  have hw1 := rowScatter_window_one wf e d'
  have hn := n.isLt
  have hd' := d'.isLt
  unfold ScatterDims.resultIdx?
  split
  · next h =>
    have h0 : 0 ≤ (rowScatter N E D wf).start (ix2 e d') idx 0 + ((rowScatter N E D wf).window (ix2 e d') 0 : Nat)
        ∧ (rowScatter N E D wf).start (ix2 e d') idx 0 + ((rowScatter N E D wf).window (ix2 e d') 0 : Nat) < (N : Int) := h 0
    rw [hs0, hw0] at h0
    constructor
    · intro hf
      have h1 : ((rowScatter N E D wf).start (ix2 e d') idx 0 + ((rowScatter N E D wf).window (ix2 e d') 0 : Nat)).toNat = n.val :=
        congrArg (fun f => (f 0).val) (Option.some.inj hf)
      have h2 : ((rowScatter N E D wf).start (ix2 e d') idx 1 + ((rowScatter N E D wf).window (ix2 e d') 1 : Nat)).toNat = d.val :=
        congrArg (fun f => (f 1).val) (Option.some.inj hf)
      rw [hs0, hw0] at h1
      rw [hs1, hw1] at h2
      refine ⟨by omega, Fin.ext (by omega)⟩
    · rintro ⟨hv, rfl⟩
      congr 1
      funext a
      refine Fin.ext ?_
      match a with
      | ⟨0, _⟩ =>
        show ((rowScatter N E D wf).start (ix2 e d') idx 0 + ((rowScatter N E D wf).window (ix2 e d') 0 : Nat)).toNat = n.val
        rw [hs0, hw0, hv]
        omega
      | ⟨1, _⟩ =>
        show ((rowScatter N E D wf).start (ix2 e d') idx 1 + ((rowScatter N E D wf).window (ix2 e d') 1 : Nat)).toNat = d'.val
        rw [hs1, hw1]
        omega
  · next h =>
    constructor
    · intro hf
      exact absurd hf (by simp)
    · rintro ⟨hv, rfl⟩
      refine absurd (fun a => ?_) h
      match a with
      | ⟨0, _⟩ =>
        show 0 ≤ (rowScatter N E D wf).start (ix2 e d') idx 0 + ((rowScatter N E D wf).window (ix2 e d') 0 : Nat)
          ∧ (rowScatter N E D wf).start (ix2 e d') idx 0 + ((rowScatter N E D wf).window (ix2 e d') 0 : Nat) < (N : Int)
        rw [hs0, hw0, hv]
        omega
      | ⟨1, _⟩ =>
        show 0 ≤ (rowScatter N E D wf).start (ix2 e d') idx 1 + ((rowScatter N E D wf).window (ix2 e d') 1 : Nat)
          ∧ (rowScatter N E D wf).start (ix2 e d') idx 1 + ((rowScatter N E D wf).window (ix2 e d') 1 : Nat) < ((D : Nat) : Int)
        rw [hs1, hw1]
        omega

end Cert.Lib.RowScatter

end
-- ==== Proof.RefValue.lean ====
/-
  The reference computes the voxel average. After the voxel number `ix(b, n)` the reference program forms the flat
  segment number `ix(b, n) + b * 32768`, scatter-adds the feature rows (the features transposed and flattened to
  `[16 * 32768, 64]`) and a column of ones into zero tables of `16 * 32768` segments, replaces an empty segment's
  count by one, divides, and folds the segment axis back into batch × voxel. Read at the output index `(b, d, v)`
  this is the sum of `f(b, d, n)` over the points `n` of batch `b` with `ix(b, n) = v`, over the number of such
  points (an empty voxel's count read as one): the specification's `avg`.

  The two scatter-adds are sums over the updates that land on a given table entry. Where an update lands is decided
  by its scatter index read as a signed integer; the range hypothesis (every voxel number is below `32768`) makes the
  32-bit sum `ix(b, n) + b * 32768` the exact natural number, below `16 * 32768`, so the update of row
  `b' * 32768 + n` lands on segment `b * 32768 + v` exactly when `b' = b` and `ix(b, n) = v`.
-/
import proofs.«175713_j24764781429164_2_alg».proof.Proof.Gen.ReferenceIdeal.Read
import proofs.«175713_j24764781429164_2_alg».proof.Proof.Spec
import proofs.«175713_j24764781429164_2_alg».proof.Proof.LibTakeColumn
import proofs.«175713_j24764781429164_2_alg».proof.Proof.LibRowScatter

noncomputable section

open scoped BigOperators
open Idealize.ShloMosaic Idealize.ShloMosaic.ValueIdx
open Cert.Lib.RowScatter

namespace Cert.Voxel.Ref

/-! ## Sums over the rows of the flat tables -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Row `b * 32768 + n` of the flat tables: point `n` of batch `b`, and likewise voxel `n` of batch `b`. -/
abbrev row (b : Fin 16) (n : Fin 32768) : Fin 524288 :=
  ⟨b.val * 32768 + n.val, by have := b.isLt; have := n.isLt; omega⟩

/-- The rows are the pairs (batch, point). -/
def rowEquiv : Fin 16 × Fin 32768 ≃ Fin 524288 where
  toFun p := row p.1 p.2
  invFun e := (⟨e.val / 32768, by have := e.isLt; omega⟩, ⟨e.val % 32768, Nat.mod_lt _ (by decide)⟩)
  left_inv p := by
    have h1 := p.1.isLt; have h2 := p.2.isLt
    refine Prod.ext (Fin.ext ?_) (Fin.ext ?_)
    · show (p.1.val * 32768 + p.2.val) / 32768 = p.1.val; omega
    · show (p.1.val * 32768 + p.2.val) % 32768 = p.2.val; omega
  right_inv e := by
    refine Fin.ext ?_
    show e.val / 32768 * 32768 + e.val % 32768 = e.val; omega

/-- A sum over the rows whose terms vanish outside batch `b` is the sum over that batch's points. -/
theorem sum_rows (g : Fin 524288 → EReal) (b : Fin 16)
    (h : ∀ (b' : Fin 16) (n : Fin 32768), b' ≠ b → g (row b' n) = 0) :
    ∑ e, g e = ∑ n : Fin 32768, g (row b n) := by
  rw [← Equiv.sum_comp rowEquiv g, Fintype.sum_prod_type]
  rw [Finset.sum_eq_single b]
  · rfl
  · intro b' _ hb'
    exact Finset.sum_eq_zero fun n _ => h b' n hb'
  · intro hb; exact absurd (Finset.mem_univ b) hb

/-! ## The segment number -/

open Cert.ReferenceIdeal Cert.ReferenceIdeal.Read

/-- The segment number at row `b' * 32768 + n`: the voxel number `ix(b', n)` plus `b' * 32768`, in 32-bit words. -/
theorem seg_apply (x1 : (⟨S16x3x32768, .f32⟩ : BufTy).Contents (Elt Ideal)) (b' : Fin 16) (n : Fin 32768) :
    val_main_v40 (F := Ideal) x1 (ix1 (row b' n))
      = val_main_v33 (F := Ideal) x1 (ix2 b' n) + BitVec.ofNat 32 b'.val * 32768#32 := by
  rw [val_main_v40_apply, val_main_v39_apply, val_main_v38_apply, val_main_v37_apply, val_main_v35_apply,
    val_main_v34_apply, val_main_v36_apply, val_main_c_9_apply]
  have hi : idx_main_v40 (ix1 (row b' n)) = ix2 b' n := by
    funext a; refine Fin.ext ?_
    have h1 := b'.isLt; have h2 := n.isLt
    match a with
    | ⟨0, _⟩ => show (b'.val * 32768 + n.val) / 32768 = b'.val; omega
    | ⟨1, _⟩ => show (b'.val * 32768 + n.val) % 32768 = n.val; omega
  rw [hi]
  rfl

/-- Under the range hypothesis the 32-bit sum does not wrap and is not negative: read signed, the segment number at
    row `b' * 32768 + n` is the natural number `ix(b', n) + b' * 32768`. -/
theorem seg_toInt (x1 : (⟨S16x3x32768, .f32⟩ : BufTy).Contents (Elt Ideal))
    (hr : ∀ i, (val_main_v33 (F := Ideal) x1 i).toNat < 32768) (b' : Fin 16) (n : Fin 32768) :
    (val_main_v40 (F := Ideal) x1 (ix1 (row b' n))).toInt
      = (((val_main_v33 (F := Ideal) x1 (ix2 b' n)).toNat + b'.val * 32768 : Nat) : Int) := by
  rw [seg_apply]
  have ha := hr (ix2 b' n)
  generalize val_main_v33 (F := Ideal) x1 (ix2 b' n) = a at ha ⊢
  have hb := b'.isLt
  have h1 : (a + BitVec.ofNat 32 b'.val * 32768#32).toNat = a.toNat + b'.val * 32768 := by
    rw [BitVec.toNat_add, BitVec.toNat_mul, BitVec.toNat_ofNat]
    have h32 : (32768#32).toNat = 32768 := rfl
    rw [h32]
    omega
  rw [BitVec.toInt_eq_toNat_of_lt (by rw [h1]; omega), h1]

/-- The update of row `b' * 32768 + n` is aimed at segment `b * 32768 + v` exactly when `b' = b` and the voxel number
    `ix(b, n)` is `v`. -/
theorem seg_eq_iff (x1 : (⟨S16x3x32768, .f32⟩ : BufTy).Contents (Elt Ideal))
    (hr : ∀ i, (val_main_v33 (F := Ideal) x1 i).toNat < 32768) (b' b : Fin 16) (n v : Fin 32768) :
    (val_main_v40 (F := Ideal) x1 (ix1 (row b' n))).toInt = ((row b v).val : Int)
      ↔ (b' = b ∧ val_main_v33 (F := Ideal) x1 (ix2 b' n) = BitVec.ofNat 32 v.val) := by
  rw [seg_toInt x1 hr]
  have ha := hr (ix2 b' n)
  generalize val_main_v33 (F := Ideal) x1 (ix2 b' n) = a at ha ⊢
  have hb' := b'.isLt
  have hb := b.isLt
  have hv := v.isLt
  constructor
  · intro h
    have h' : a.toNat + b'.val * 32768 = b.val * 32768 + v.val := by exact_mod_cast h
    refine ⟨Fin.ext (by omega), BitVec.eq_of_toNat_eq ?_⟩
    rw [BitVec.toNat_ofNat]
    omega
  · rintro ⟨rfl, rfl⟩
    rw [BitVec.toNat_ofNat]
    show ((v.val % 2 ^ 32 + b'.val * 32768 : Nat) : Int) = ((b'.val * 32768 + v.val : Nat) : Int)
    congr 1
    omega

/-! ## The constants -/

/-- The word `0x3F800000` is the number one. -/
theorem one_f32 : Ideal.ofBits .f32 0x3F800000#32 = 1 := by
  simp [Ideal.ofBits, Ideal.ieee, -EReal.coe_mul]; norm_num

/-! ## Where the updates of the two scatters land -/

/-- The count scatter: the update of row `b' * 32768 + n` lands on segment `b * 32768 + v` exactly when `b' = b` and
    `ix(b, n) = v`. -/
theorem land_count (x1 : (⟨S16x3x32768, .f32⟩ : BufTy).Contents (Elt Ideal))
    (hr : ∀ i, (val_main_v33 (F := Ideal) x1 i).toNat < 32768) (b' b : Fin 16) (n v : Fin 32768) :
    scatter_S524288_S524288x1_S524288_n_0_0_1.resultIdx? (ix1 (row b' n)) (val_main_v48 (F := Ideal) x1)
        = some (ix1 (row b v))
      ↔ (b' = b ∧ val_main_v33 (F := Ideal) x1 (ix2 b' n) = BitVec.ofNat 32 v.val) := by
  have hd : scatter_S524288_S524288x1_S524288_n_0_0_1
      = Cert.Lib.TakeColumn.flatScatter 524288 524288 Cert.ReferenceIdeal.Gen.scatter_S524288_S524288x1_S524288_n_0_0_1_wf := rfl
  rw [hd, Cert.Lib.TakeColumn.resultIdx_flat]
  have hi : val_main_v48 (F := Ideal) x1 (ix2 (row b' n) 0) = val_main_v40 (F := Ideal) x1 (ix1 (row b' n)) := by
    rw [val_main_v48_apply]
    refine congrArg _ (funext fun a => ?_)
    match a with
    | ⟨0, _⟩ => rfl
  rw [hi]
  exact seg_eq_iff x1 hr b' b n v

/-- The feature scatter: the update at row `b' * 32768 + n`, channel `d'`, lands on segment `b * 32768 + v`, channel
    `d`, exactly when `b' = b`, `ix(b, n) = v` and `d' = d`. -/
theorem land_feat (x1 : (⟨S16x3x32768, .f32⟩ : BufTy).Contents (Elt Ideal))
    (hr : ∀ i, (val_main_v33 (F := Ideal) x1 i).toNat < 32768) (b' b : Fin 16) (n v : Fin 32768) (d' d : Fin 64) :
    scatter_S524288x64_S524288x1_S524288x64_1_0_0_1.resultIdx? (ix2 (row b' n) d') (val_main_v44 (F := Ideal) x1)
        = some (ix2 (row b v) d)
      ↔ ((b' = b ∧ val_main_v33 (F := Ideal) x1 (ix2 b' n) = BitVec.ofNat 32 v.val) ∧ d' = d) := by
  have hd : scatter_S524288x64_S524288x1_S524288x64_1_0_0_1
      = rowScatter 524288 524288 64 Cert.ReferenceIdeal.Gen.scatter_S524288x64_S524288x1_S524288x64_1_0_0_1_wf := rfl
  rw [hd, resultIdx_row]
  have hi : val_main_v44 (F := Ideal) x1 (ix2 (row b' n) 0) = val_main_v40 (F := Ideal) x1 (ix1 (row b' n)) := by
    rw [val_main_v44_apply]
    refine congrArg _ (funext fun a => ?_)
    match a with
    | ⟨0, _⟩ => rfl
  rw [hi, seg_eq_iff x1 hr b' b n v]

/-! ## The two scatter-adds read at a segment -/

/-- The host scatter-add read at an entry: the table's entry plus the sum of the updates that land on it. -/
theorem hostScatterAdd_apply {s si su : Shape} (d : ScatterDims s si su) {w : Nat} (x : s.Idx → EReal) (idx : IVec si w)
    (upd : su.Idx → EReal) (i : s.Idx) :
    Ideal.hostScatterAdd d x idx upd i
      = x i + ∑ j ∈ Finset.univ.filter (fun j => d.resultIdx? j idx = some i), upd j := rfl

/-- The count table is the scatter-add of the column of ones into the zero table at the segment numbers. -/
theorem v49_eq (x1 : (⟨S16x3x32768, .f32⟩ : BufTy).Contents (Elt Ideal)) :
    val_main_v49 (F := Ideal) x1
      = Ideal.hostScatterAdd scatter_S524288_S524288x1_S524288_n_0_0_1 (val_main_v47 (F := Ideal))
          (val_main_v48 (F := Ideal) x1) (val_main_v46 (F := Ideal)) := rfl

/-- The sum table is the scatter-add of the feature rows into the zero table at the segment numbers. -/
theorem v45_eq (x0 : (⟨S16x64x32768, .f32⟩ : BufTy).Contents (Elt Ideal))
    (x1 : (⟨S16x3x32768, .f32⟩ : BufTy).Contents (Elt Ideal)) :
    val_main_v45 (F := Ideal) x0 x1
      = Ideal.hostScatterAdd scatter_S524288x64_S524288x1_S524288x64_1_0_0_1 (val_main_v43 (F := Ideal))
          (val_main_v44 (F := Ideal) x1) (val_main_v42 (F := Ideal) x0) := rfl

/-- The specification's count, written out. -/
theorem voxelCount_eq (ix : SIdx.Idx → BitVec 32) (b : Fin 16) (v : Fin 32768) :
    voxelCount ix b v = ∑ n : Fin 32768, if ix (ix2 b n) = BitVec.ofNat 32 v.val then 1 else 0 := rfl

/-- The specification's sum, written out. -/
theorem voxelSum_eq (f : SFeat.Idx → EReal) (ix : SIdx.Idx → BitVec 32) (b : Fin 16) (d : Fin 64) (v : Fin 32768) :
    voxelSum f ix b d v = ∑ n : Fin 32768, if ix (ix2 b n) = BitVec.ofNat 32 v.val then f (ix3 b d n) else 0 := rfl

/-- The count table at segment `b * 32768 + v`: the number of points of batch `b` in voxel `v`. -/
theorem count_apply (x1 : (⟨S16x3x32768, .f32⟩ : BufTy).Contents (Elt Ideal))
    (hr : ∀ i, (val_main_v33 (F := Ideal) x1 i).toNat < 32768) (b : Fin 16) (v : Fin 32768) :
    val_main_v49 (F := Ideal) x1 (ix1 (row b v)) = voxelCount (val_main_v33 (F := Ideal) x1) b v := by
  rw [v49_eq, hostScatterAdd_apply, val_main_v47_apply, val_main_cst_12_apply]
  have hz : FloatOps.ofBits (F := Ideal) .f32 0x00000000#32 = 0 := Ideal.ofBits_zero_f32
  rw [hz, zero_add, Finset.sum_filter, sum_idx1, voxelCount_eq]
  rw [sum_rows _ b]
  · refine Finset.sum_congr rfl fun n _ => ?_
    rw [val_main_v46_apply, val_main_cst_11_apply]
    have ho : FloatOps.ofBits (F := Ideal) .f32 0x3F800000#32 = 1 := one_f32
    rw [ho]
    refine if_congr ?_ rfl rfl
    rw [land_count x1 hr b b n v]
    exact ⟨fun h => h.2, fun h => ⟨rfl, h⟩⟩
  · intro b' n hb'
    rw [if_neg]
    rw [land_count x1 hr b' b n v]
    exact fun h => hb' h.1

/-- The feature row `b * 32768 + n`, channel `d`, is the feature `f(b, d, n)`. -/
theorem feat_row (x0 : (⟨S16x64x32768, .f32⟩ : BufTy).Contents (Elt Ideal)) (b : Fin 16) (n : Fin 32768) (d : Fin 64) :
    val_main_v42 (F := Ideal) x0 (ix2 (row b n) d) = x0 (ix3 b d n) := by
  rw [val_main_v42_apply, val_main_v41_apply]
  refine congrArg x0 (funext fun a => Fin.ext ?_)
  have h1 := b.isLt; have h2 := n.isLt; have h3 := d.isLt
  match a with
  | ⟨0, _⟩ => show ((b.val * 32768 + n.val) * 64 + d.val) / 2097152 = b.val; omega
  | ⟨1, _⟩ => show ((b.val * 32768 + n.val) * 64 + d.val) % 64 = d.val; omega
  | ⟨2, _⟩ => show ((b.val * 32768 + n.val) * 64 + d.val) / 64 % 32768 = n.val; omega

/-- The sum table at segment `b * 32768 + v`, channel `d`: the sum of `f(b, d, n)` over the points of batch `b` in
    voxel `v`. -/
theorem sum_apply (x0 : (⟨S16x64x32768, .f32⟩ : BufTy).Contents (Elt Ideal))
    (x1 : (⟨S16x3x32768, .f32⟩ : BufTy).Contents (Elt Ideal))
    (hr : ∀ i, (val_main_v33 (F := Ideal) x1 i).toNat < 32768) (b : Fin 16) (d : Fin 64) (v : Fin 32768) :
    val_main_v45 (F := Ideal) x0 x1 (ix2 (row b v) d) = voxelSum x0 (val_main_v33 (F := Ideal) x1) b d v := by
  rw [v45_eq, hostScatterAdd_apply, val_main_v43_apply, val_main_cst_10_apply]
  have hz : FloatOps.ofBits (F := Ideal) .f32 0x00000000#32 = 0 := Ideal.ofBits_zero_f32
  rw [hz, zero_add, Finset.sum_filter, sum_idx2, voxelSum_eq]
  rw [sum_rows _ b]
  · refine Finset.sum_congr rfl fun n _ => ?_
    rw [Finset.sum_eq_single d]
    · rw [feat_row]
      refine if_congr ?_ rfl rfl
      rw [land_feat x1 hr b b n v d d]
      exact ⟨fun h => h.1.2, fun h => ⟨⟨rfl, h⟩, rfl⟩⟩
    · intro d' _ hd'
      rw [if_neg]
      rw [land_feat x1 hr b b n v d' d]
      exact fun h => hd' h.2
    · intro hd; exact absurd (Finset.mem_univ d) hd
  · intro b' n hb'
    refine Finset.sum_eq_zero fun d' _ => ?_
    rw [if_neg]
    rw [land_feat x1 hr b' b n v d' d]
    exact fun h => hb' h.1.1

/-! ## The reference is the voxel average -/

/-- The reference's result before its last reshape is the voxel average of the features at the voxel numbers. -/
theorem ref_avg (x0 : (⟨Cert.ReferenceIdeal.S16x64x32768, .f32⟩ : BufTy).Contents (Elt Ideal))
    (x1 : (⟨Cert.ReferenceIdeal.S16x3x32768, .f32⟩ : BufTy).Contents (Elt Ideal))
    (hr : ∀ i, (Cert.ReferenceIdeal.Read.val_main_v33 (F := Ideal) x1 i).toNat < 32768) :
    Cert.ReferenceIdeal.Read.val_main_v56 (F := Ideal) x0 x1
      = Cert.Voxel.avg x0 (Cert.ReferenceIdeal.Read.val_main_v33 (F := Ideal) x1) := by
  funext j
  obtain ⟨b, d, v, rfl⟩ : ∃ b d v, j = ix3 b d v := ⟨j 0, j 1, j 2, eq_ix3 j⟩
  rw [avg_apply, val_main_v56_apply, val_main_v55_apply, val_main_v54_apply]
  have hi : idx_main_v55 (idx_main_v56 (ix3 b d v)) = ix2 (row b v) d := by
    funext a; refine Fin.ext ?_
    have h1 := b.isLt; have h2 := v.isLt; have h3 := d.isLt
    match a with
    | ⟨0, _⟩ => show ((b.val * 32768 + v.val) * 64 + d.val) / 64 = b.val * 32768 + v.val; omega
    | ⟨1, _⟩ => show ((b.val * 32768 + v.val) * 64 + d.val) % 64 = d.val; omega
  rw [hi, sum_apply x0 x1 hr b d v, val_main_v53_apply, val_main_v52_apply, val_main_v51_apply]
  have hi2 : idx_main_v52 (idx_main_v53 (ix2 (row b v) d)) = ix1 (row b v) := by
    funext a
    match a with
    | ⟨0, _⟩ => rfl
  rw [hi2, count_apply x1 hr b v, val_main_v50_apply, val_main_cst_13_apply]
  have ho : FloatOps.ofBits (F := Ideal) .f32 0x3F800000#32 = 1 := one_f32
  rw [ho]
  rfl

end Cert.Voxel.Ref

end
-- ==== Proof.IndexRange.lean ====
/-
  The voxel number is below 32768.

  Each coordinate of a point is clipped to the interval [0, 31], rounded to the nearest integer (ties to even) and
  converted to a 32-bit word; the voxel number is  a * 1024 + b * 32 + c  for the three words a, b, c of the point's
  three coordinates. A real number in [0, 31] rounds to an integer in [0, 31], so each word is at most 31, and
  31 * 1024 + 31 * 32 + 31 = 32767: nothing wraps and the number is below 32768. What is clipped never matters.
-/
import proofs.«175713_j24764781429164_2_alg».proof.Proof.Spec
import proofs.«175713_j24764781429164_2_alg».proof.Proof.Gen.ReferenceIdeal.Read

noncomputable section

namespace Cert.Voxel.Range

open Idealize.ShloMosaic Cert.ReferenceIdeal Cert.ReferenceIdeal.Read

/-- Rounding to nearest, ties to even, keeps a real of [0, 31] inside [0, 31]: the floor is already there, and the
    value moves up from the floor only when the fractional part is at least one half, which cannot happen at 31. -/
theorem roundHalfEven_mem (r : ℝ) (h0 : 0 ≤ r) (h31 : r ≤ 31) :
    0 ≤ Ideal.roundHalfEven r ∧ Ideal.roundHalfEven r ≤ 31 := by
  have hf0 : 0 ≤ ⌊r⌋ := Int.floor_nonneg.mpr h0
  have hfle : (⌊r⌋ : ℝ) ≤ r := Int.floor_le r
  have hf31 : ⌊r⌋ ≤ 31 := by
    have : (⌊r⌋ : ℝ) ≤ 31 := le_trans hfle h31
    exact_mod_cast this
  have hlt : ¬ (r - ⌊r⌋ < 1 / 2) → ⌊r⌋ < 31 := by
    intro h1
    rcases lt_or_eq_of_le hf31 with h | h
    · exact h
    · exfalso
      apply h1
      rw [h] at hfle ⊢
      push_cast at hfle ⊢
      linarith
  unfold Ideal.roundHalfEven
  dsimp only
  split_ifs with h1 h2 h3
  · exact ⟨hf0, hf31⟩
  · have := hlt h1; constructor <;> omega
  · exact ⟨hf0, hf31⟩
  · have := hlt h1; constructor <;> omega

/-- An extended real between 0 and 31 is a real number between 0 and 31. -/
theorem exists_real_of_mem (y : EReal) (h0 : ((0 : ℝ) : EReal) ≤ y) (h31 : y ≤ ((31 : ℝ) : EReal)) :
    ∃ r : ℝ, 0 ≤ r ∧ r ≤ 31 ∧ y = (r : EReal) := by
  induction y using EReal.rec with
  | bot => exact absurd (le_bot_iff.mp h0) (EReal.coe_ne_bot 0)
  | top => exact absurd (top_le_iff.mp h31) (EReal.coe_ne_top 31)
  | coe r => exact ⟨r, EReal.coe_le_coe_iff.mp h0, EReal.coe_le_coe_iff.mp h31, rfl⟩

/-- The word of a clipped, rounded coordinate is at most 31, whatever was clipped. -/
theorem clip_word_le (x : EReal) :
    (Ideal.fptosi 32 (Ideal.liftRound Ideal.roundHalfEven
      (min ((((31#32 : BitVec 32).toInt : ℝ)) : EReal) (max ((((0#32 : BitVec 32).toInt : ℝ)) : EReal) x)))).toNat ≤ 31 := by
  have e31 : (((31#32 : BitVec 32).toInt : ℝ)) = 31 := by
    rw [show (31#32 : BitVec 32).toInt = 31 from by decide]; norm_num
  have e0 : (((0#32 : BitVec 32).toInt : ℝ)) = 0 := by
    rw [show (0#32 : BitVec 32).toInt = 0 from by decide]; norm_num
  rw [e31, e0]
  obtain ⟨r, hr0, hr31, hy⟩ := exists_real_of_mem (min ((31 : ℝ) : EReal) (max ((0 : ℝ) : EReal) x))
    (le_min (EReal.coe_le_coe_iff.mpr (by norm_num)) (le_max_left _ _)) (min_le_left _ _)
  rw [hy, Ideal.liftRound_coe]
  obtain ⟨hz0, hz31⟩ := roundHalfEven_mem r hr0 hr31
  generalize Ideal.roundHalfEven r = z at hz0 hz31
  rw [Ideal.fptosi, Ideal.toIntClamped_coe, Int.floor_intCast, Int.ceil_intCast, ite_self, BitVec.toNat_ofInt]
  have hmin : min (((2 ^ (32 - 1) : ℕ) : ℤ) - 1) z = z := min_eq_right (by norm_num; omega)
  have hmax : max (-((2 ^ (32 - 1) : ℕ) : ℤ)) z = z := max_eq_right (by norm_num; omega)
  rw [hmin, hmax]
  omega

/-- Three words of at most 31 combine, as  a * 1024 + b * 32 + c  in wrapping 32-bit arithmetic, to a word below 32768. -/
theorem combine_lt (a b c : BitVec 32) (ha : a.toNat ≤ 31) (hb : b.toNat ≤ 31) (hc : c.toNat ≤ 31) :
    (a * 1024#32 + b * 32#32 + c).toNat < 32768 := by
  rw [BitVec.toNat_add, BitVec.toNat_add, BitVec.toNat_mul, BitVec.toNat_mul, BitVec.toNat_ofNat, BitVec.toNat_ofNat]
  omega

/-- At the ideal instance the conversion to a word is truncation toward zero, then the clamp to the word's range. -/
theorem fptosi_eq (x : EReal) :
    FloatOps.fptosi (F := Ideal) (φ := .f32) 32 x = Ideal.fptosi 32 x := rfl

/-- At the ideal instance the conversion from a word is the word's signed integer, exactly. -/
theorem sitofp_eq (b : BitVec 32) :
    FloatOps.sitofp (F := Ideal) .f32 b = (((b.toInt : ℝ)) : EReal) := rfl

/-- Every converted coordinate word is at most 31: it is the clip to [0, 31], rounded and converted, of some value. -/
theorem word_le (x1 : (⟨Cert.ReferenceIdeal.S16x3x32768, .f32⟩ : BufTy).Contents (Elt Ideal))
    (j : Cert.ReferenceIdeal.S16x3x32768.Idx) :
    (val_main_v21 (F := Ideal) x1 j).toNat ≤ 31 := by
  rw [val_main_v21_apply, val_main_v20_apply, val_main_v19_apply, val_main_call1_v4_apply, val_main_call1_v3_apply,
    val_main_c_6_apply, val_main_call1_v2_apply, val_main_call1_v1_apply, val_main_call1_v0_apply, val_main_c_apply]
  generalize val_main_v18 (F := Ideal) x1 j = x
  rw [fptosi_eq, Ideal.hostUnary_roundeven_def, Ideal.minimumf_def, Ideal.maximumf_def, sitofp_eq, sitofp_eq]
  exact clip_word_le x

/-- The voxel number of every point of every batch is below 32768. -/
theorem index_lt (x1 : (⟨Cert.ReferenceIdeal.S16x3x32768, .f32⟩ : BufTy).Contents (Elt Ideal))
    (i : Cert.ReferenceIdeal.S16x32768.Idx) :
    (Cert.ReferenceIdeal.Read.val_main_v33 (F := Ideal) x1 i).toNat < 32768 := by
  rw [val_main_v33_apply, val_main_v30_apply, val_main_v25_apply, val_main_v29_apply, val_main_v24_apply,
    val_main_c_7_apply, val_main_v28_apply, val_main_c_8_apply, val_main_v23_apply, val_main_v22_apply,
    val_main_v27_apply, val_main_v26_apply, val_main_v32_apply, val_main_v31_apply]
  exact combine_lt _ _ _ (word_le x1 _) (word_le x1 _) (word_le x1 _)

end Cert.Voxel.Range

end
-- ==== Proof.lean ====
/-
  Voxel averaging on a 32 × 32 × 32 grid: the kernel against its reference, over the extended reals.

  Both programs first compute, from the point coordinates alone and by the same host operations, the clipped
  coordinates (their second result) and each point's voxel number ix(b, n) in [0, 32768). The first result at
  (b, d, v) is then the sum of the features f(b, d, n) over the points n of batch b with ix(b, n) = v, divided by the
  number of those points, an empty voxel's count read as one (`Cert.Voxel.avg`), reshaped to rank five.

  The kernel takes a one-hot matrix of the comparison "voxel number = v" times the features (with a row of ones
  appended, which yields the count), accumulated over eight tiles of 4096 points and divided out at the last tile.
  Multiplying an extended real by the indicator 0 or 1 selects it or gives 0 with nothing asked to be finite, and a sum
  over 8 × 4096 pairs is the sum over the 32768 points. The reference scatter-adds every point of every batch into
  segment ix(b, n) + 32768 b of one flat table; because ix(b, n) < 32768 (the clip to [0, 31] survives the rounding and
  the integer conversion) a point lands in its own batch's stretch of segments, so segment 32768 b + v collects exactly
  the points of batch b with voxel number v. Sums of extended reals commute and associate, so both arrangements are
  the same sum; the precondition (finite inputs) is not needed for any step and is never opened.

  The three frame claims are the generated frame proofs (the reference's: its generated run with the results
  dropped); the idealization rewrote nothing, so `preserves` is trivial.
-/
import proofs.«175713_j24764781429164_2_alg».proof.Defs
import proofs.«175713_j24764781429164_2_alg».proof.Proof.Gen.Kernel
import proofs.«175713_j24764781429164_2_alg».proof.Proof.Gen.Kernel.Skeleton
import proofs.«175713_j24764781429164_2_alg».proof.Proof.Gen.Kernel.Launch
import proofs.«175713_j24764781429164_2_alg».proof.Proof.Gen.Kernel.Points
import proofs.«175713_j24764781429164_2_alg».proof.Proof.Gen.Kernel.Frame
import proofs.«175713_j24764781429164_2_alg».proof.Proof.Gen.KernelIdeal
import proofs.«175713_j24764781429164_2_alg».proof.Proof.Gen.KernelIdeal.Skeleton
import proofs.«175713_j24764781429164_2_alg».proof.Proof.Gen.KernelIdeal.Launch
import proofs.«175713_j24764781429164_2_alg».proof.Proof.Gen.KernelIdeal.Points
import proofs.«175713_j24764781429164_2_alg».proof.Proof.Gen.KernelIdeal.Frame
import proofs.«175713_j24764781429164_2_alg».proof.Proof.Gen.ReferenceIdeal
import proofs.«175713_j24764781429164_2_alg».proof.Proof.Gen.ReferenceIdeal.Run
import proofs.«175713_j24764781429164_2_alg».proof.Proof.Gen.ReferenceIdeal.Read
import proofs.«175713_j24764781429164_2_alg».proof.Proof.Gen.Pre_finite_inputs
import proofs.«175713_j24764781429164_2_alg».proof.Proof.KernelValue
import proofs.«175713_j24764781429164_2_alg».proof.Proof.RefValue
import proofs.«175713_j24764781429164_2_alg».proof.Proof.IndexRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- The reference's first result: the reshaped voxel average of its arguments. -/
theorem reference_result (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v57 m' c
      = shapeCast Cert.ReferenceIdeal.S16x64x32x32x32
          (Cert.Voxel.avg (m' ((c.tc : Thread Cert.ReferenceIdeal.nD Cert.ReferenceIdeal.τ).loc Cert.ReferenceIdeal.main_arg0))
            (Cert.ReferenceIdeal.Read.val_main_v33 (F := Ideal) (m' ((c.tc : Thread Cert.ReferenceIdeal.nD Cert.ReferenceIdeal.τ).loc Cert.ReferenceIdeal.main_arg1))))
          Cert.ReferenceIdeal.Facts₀.shapeCasts_S16x64x32768_S16x64x32x32x32 := by
  rw [Cert.ReferenceIdeal.Read.val_main_v57_eq, ← Cert.Voxel.Ref.ref_avg _ _ (fun i => Cert.Voxel.Range.index_lt _ i)]
  rfl

theorem algebraic : Cert.algebraic_KernelIdeal_ReferenceIdeal := by
  intro m ρ m' ρ' _ hagree
  refine ⟨_, _, Cert.Voxel.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [reference_result m' c, (hagree c).1, (hagree c).2]
  · rw [Cert.ReferenceIdeal.Read.val_main_v19_eq, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
